-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x18 : Shape := ⟨2, ![128, 18]⟩
abbrev S18 : Shape := ⟨1, ![18]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x18 : S_.BroadcastsInDim S128x18 (![] : Fin 0 → Fin S128x18.rank)
  reducesTo_S128x18_S_d0_1 : S128x18.ReducesTo [0, 1] S_
  bcast_S_S18 : S_.BroadcastsInDim S18 (![] : Fin 0 → Fin S18.rank)
  reducesTo_S18_S_d0 : S18.ReducesTo [0] S_

variable [Facts]

def fn_part1 {F : FTy → Type} [FloatOps F] (main_arg5 : FVec F S18 .f32) (main_v13 : IVec S_ 1) (main_v16 : IVec S128x18 1) : IVec S_ 1 :=
  let main_c_5 : IVec S_ 1 := constantI S_ 1 1#1
  let main_v17 : IVec S_ 1 := (fun x v => Host.reduce IntOp.andi x v reducesTo_S128x18_S_d0_1 h_S_) main_v16 main_c_5
  let main_v18 : IVec S_ 1 := andi main_v13 main_v17
  let main_v19 : FVec F S18 .f32 := Host.absf main_arg5
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x18 .f32) (main_arg5 : FVec F S18 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x18 .f32 := Host.absf main_arg4
  let main_cst_4 : FVec F S_ .f32 := constant S_ .f32 0x7F800000#32
  let main_v15 : FVec F S128x18 .f32 := broadcastInDim S128x18 ![] bcast_S_S128x18 main_cst_4
  let main_v16 : IVec S128x18 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x18 : Shape := ⟨2, ![128, 18]⟩
abbrev S18 : Shape := ⟨1, ![18]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x18 : Shape := ⟨2, ![100000, 18]⟩
abbrev S10000x18 : Shape := ⟨2, ![10000, 18]⟩
abbrev S1700000x18 : Shape := ⟨2, ![1700000, 18]⟩
abbrev S1x18 : Shape := ⟨2, ![1, 18]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x18, .f32⟩
  | .hbm, ⟨5, _⟩ => ⟨S18, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x18, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x18, .f32⟩
  | .hbm, ⟨75, _⟩ => ⟨S1700000x1, .f32⟩
  | .hbm, ⟨76, _⟩ => ⟨S1700000x18, .f32⟩
  | .hbm, ⟨77, _⟩ => ⟨S1700000x18, .f32⟩
  | .hbm, ⟨78, _⟩ => ⟨S_, .f32⟩
  | .hbm, ⟨79, _⟩ => ⟨S100000x18, .f32⟩
  | .hbm, ⟨80, _⟩ => ⟨S1700000x1, .i32⟩
  | .hbm, ⟨81, _⟩ => ⟨S100000x18, .f32⟩
  | .hbm, ⟨82, _⟩ => ⟨S1x18, .f32⟩
  | .hbm, ⟨83, _⟩ => ⟨S100000x18, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x18, .f32⟩
  | .local _ .vmem, ⟨13, _⟩ => ⟨S10000x18, .f32⟩
  | .local _ .vmem, ⟨14, _⟩ => ⟨S10000x18, .f32⟩
  | .local _ .vmem, ⟨15, _⟩ => ⟨S10000x18, .f32⟩
  | .local _ .vmem, ⟨16, _⟩ => ⟨S10000x18, .f32⟩
  | .local _ .vmem, ⟨17, _⟩ => ⟨S1x18, .f32⟩
  | .local _ .vmem, ⟨18, _⟩ => ⟨S10000x18, .f32⟩
  | .local _ .vmem, ⟨19, _⟩ => ⟨S10000x18, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x18 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x18 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x18 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x18 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x18 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x18_S128x18_0_0 : ∀ a, (![0, 0] : Fin 2 → Nat) a + S128x18.size a ≤ S128x18.size a
  h_S128x18 : 0 < S128x18.numel
  inb_S10000x18_S10000x18_0_0 : ∀ a, (![0, 0] : Fin 2 → Nat) a + S10000x18.size a ≤ S10000x18.size a
  h_S10000x18 : 0 < S10000x18.numel
  bcast_S1700000x1_S1700000x18_0_1 : S1700000x1.BroadcastsInDim S1700000x18 (![0, 1] : Fin 2 → Fin S1700000x18.rank)
  bcast_S_S100000x18 : S_.BroadcastsInDim S100000x18 (![] : Fin 0 → Fin S100000x18.rank)
  shapeCasts_S18_S1x18 : S18.ShapeCasts S1x18
  shapeCasts_S10000x18_S10000x18 : S10000x18.ShapeCasts S10000x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S10000x18 : S1x18.Broadcasts S10000x18
  reduces_S10000x18_S10000 : S10000x18.Reduces [1] S10000
  shapeCasts_S10000_S10000x1 : S10000.ShapeCasts S10000x1
  broadcasts_S10000x1_S10000x18 : S10000x1.Broadcasts S10000x18
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x18_S10000x18_1_0_0_1_n_n_wf : DotDims.WF S10000x128 S128x18 S10000x18 [1] [0] [0] [1] [] []
  gather_S100000x18_S1700000x1_S1700000x18_1_0_n_n_0_1_118_wf : GatherDims.WF S100000x18 S1700000x1 S1700000x18 [1] [0] [] [0] [] 1 ![1, 18]
  scatter_S100000x18_S1700000x1_S1700000x18_1_0_0_1_wf : ScatterDims.WF S100000x18 S1700000x1 S1700000x18 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x18.size a ≤ S128x18.size a
  hwx2_1 : ∀ i : grid2.Coords, EltTy.bits .f32 = 32 ∨ (Rect.block (s := S128x18) S128x18.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x18.size a ≤ S100000x18.size a
  hwx2_2 : ∀ i : grid2.Coords, EltTy.bits .f32 = 32 ∨ (Rect.block (s := S100000x18) S10000x18.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x18.size a ≤ S100000x18.size a
  hwx3_0 : ∀ i : grid3.Coords, EltTy.bits .f32 = 32 ∨ (Rect.block (s := S100000x18) S10000x18.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x18.size a ≤ S1x18.size a
  hwx3_1 : ∀ i : grid3.Coords, EltTy.bits .f32 = 32 ∨ (Rect.block (s := S1x18) S1x18.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x18.size a ≤ S100000x18.size a
  hwx3_2 : ∀ i : grid3.Coords, EltTy.bits .f32 = 32 ∨ (Rect.block (s := S100000x18) S10000x18.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x18_S10000x18_1_0_0_1_n_n : DotDims S10000x128 S128x18 S10000x18 where
  lhsContracting := [1]
  rhsContracting := [0]
  lhsNonContracting := [0]
  rhsNonContracting := [1]
  lhsBatch := []
  rhsBatch := []
  wf := dot_S10000x128_S128x18_S10000x18_1_0_0_1_n_n_wf
def gather_S100000x18_S1700000x1_S1700000x18_1_0_n_n_0_1_118 : GatherDims S100000x18 S1700000x1 S1700000x18 where
  offsetDims := [1]
  collapsedSliceDims := [0]
  operandBatchingDims := []
  startIndicesBatchingDims := []
  startIndexMap := [0]
  indexVectorDim := 1
  sliceSizes := ![1, 18]
  wf := gather_S100000x18_S1700000x1_S1700000x18_1_0_n_n_0_1_118_wf
def scatter_S100000x18_S1700000x1_S1700000x18_1_0_0_1 : ScatterDims S100000x18 S1700000x1 S1700000x18 where
  updateWindowDims := [1]
  insertedWindowDims := [0]
  scatterDimsToOperandDims := [0]
  indexVectorDim := 1
  wf := scatter_S100000x18_S1700000x1_S1700000x18_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x18.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x18.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x18.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x18.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x18.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x18 : Shape := ⟨2, ![128, 18]⟩
abbrev S18 : Shape := ⟨1, ![18]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x18 : Shape := ⟨2, ![100000, 18]⟩
abbrev S1700000x18 : Shape := ⟨2, ![1700000, 18]⟩
abbrev S1x18 : Shape := ⟨2, ![1, 18]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x18, .f32⟩
  | .hbm, ⟨5, _⟩ => ⟨S18, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x18, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x18, .f32⟩
  | .hbm, ⟨79, _⟩ => ⟨S1700000x1, .f32⟩
  | .hbm, ⟨80, _⟩ => ⟨S1700000x18, .f32⟩
  | .hbm, ⟨81, _⟩ => ⟨S1700000x18, .f32⟩
  | .hbm, ⟨82, _⟩ => ⟨S_, .f32⟩
  | .hbm, ⟨83, _⟩ => ⟨S100000x18, .f32⟩
  | .hbm, ⟨84, _⟩ => ⟨S1700000x1, .i32⟩
  | .hbm, ⟨85, _⟩ => ⟨S100000x18, .f32⟩
  | .hbm, ⟨86, _⟩ => ⟨S1x18, .f32⟩
  | .hbm, ⟨87, _⟩ => ⟨S100000x18, .f32⟩
  | .hbm, ⟨88, _⟩ => ⟨S100000x18, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x18, .f32⟩
  | .hbm, ⟨96, _⟩ => ⟨S100000x18, .f32⟩
  | .hbm, ⟨97, _⟩ => ⟨S100000x18, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x18, .f32⟩
  | .hbm, ⟨103, _⟩ => ⟨S100000x18, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x18_0_1 : S1700000x1.BroadcastsInDim S1700000x18 (![0, 1] : Fin 2 → Fin S1700000x18.rank)
  bcast_S_S100000x18 : S_.BroadcastsInDim S100000x18 (![] : Fin 0 → Fin S100000x18.rank)
  bcast_S18_S1x18_1 : S18.BroadcastsInDim S1x18 (![1] : Fin 1 → Fin S1x18.rank)
  bcast_S1x18_S100000x18_0_1 : S1x18.BroadcastsInDim S100000x18 (![0, 1] : Fin 2 → Fin S100000x18.rank)
  reducesTo_S100000x18_S100000_d1 : S100000x18.ReducesTo [1] S100000
  h_S_ : 0 < S_.numel
  bcast_S100000_S100000x1_0 : S100000.BroadcastsInDim S100000x1 (![0] : Fin 1 → Fin S100000x1.rank)
  bcast_S100000x1_S100000x18_0_1 : S100000x1.BroadcastsInDim S100000x18 (![0, 1] : Fin 2 → Fin S100000x18.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x18_S100000x18_1_0_0_1_n_n_wf : DotDims.WF S100000x128 S128x18 S100000x18 [1] [0] [0] [1] [] []
  gather_S100000x18_S1700000x1_S1700000x18_1_0_n_n_0_1_118_wf : GatherDims.WF S100000x18 S1700000x1 S1700000x18 [1] [0] [] [0] [] 1 ![1, 18]
  scatter_S100000x18_S1700000x1_S1700000x18_1_0_0_1_wf : ScatterDims.WF S100000x18 S1700000x1 S1700000x18 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x18_S100000x18_1_0_0_1_n_n : DotDims S100000x128 S128x18 S100000x18 where
  lhsContracting := [1]
  rhsContracting := [0]
  lhsNonContracting := [0]
  rhsNonContracting := [1]
  lhsBatch := []
  rhsBatch := []
  wf := dot_S100000x128_S128x18_S100000x18_1_0_0_1_n_n_wf
def gather_S100000x18_S1700000x1_S1700000x18_1_0_n_n_0_1_118 : GatherDims S100000x18 S1700000x1 S1700000x18 where
  offsetDims := [1]
  collapsedSliceDims := [0]
  operandBatchingDims := []
  startIndicesBatchingDims := []
  startIndexMap := [0]
  indexVectorDim := 1
  sliceSizes := ![1, 18]
  wf := gather_S100000x18_S1700000x1_S1700000x18_1_0_n_n_0_1_118_wf
def scatter_S100000x18_S1700000x1_S1700000x18_1_0_0_1 : ScatterDims S100000x18 S1700000x1 S1700000x18 where
  updateWindowDims := [1]
  insertedWindowDims := [0]
  scatterDimsToOperandDims := [0]
  indexVectorDim := 1
  wf := scatter_S100000x18_S1700000x1_S1700000x18_1_0_0_1_wf

class Facts : Prop extends Facts₀ where

variable [Facts]
-- ==== Proof.KernelRun.lean ====
/-
  The kernel program's run with its result named.

  The program is nine segments: three stretches of host operations (the edge lists with self-loops, the degrees and the
  per-edge normalisation), the first dense product as a gridded kernel, a host stretch (gather along the edges, scale,
  scatter-add into the target nodes), the bias-and-cut kernel, the second dense product, the same host stretch on the
  narrower rows, and the log-softmax kernel. The contents of every buffer at each segment boundary are a fold through the
  program (`Gen.W0` … `Gen.W9`); the run ends with every unscoped buffer at the last boundary's contents. Stated here: the
  result buffer ends at `Gen.W9` read at it, and the six argument arrays end as launched.
-/
import proofs.«112477_j43018392437092_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last boundary's
    contents at it, and the arguments are as launched. -/
theorem run_main : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«112477_j43018392437092_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«112477_j43018392437092_1_alg».proof.Proof.LibDenseRows
import proofs.«112477_j43018392437092_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibLayers.lean ====
/-
  The layers of the network as whole-array functions over the extended reals, index by index.

  Rows are nodes. A layer multiplies each node's feature row by a weight matrix (`dense`), the products are gathered along
  the edges, weighted and summed into the target nodes (that part is the same host operations on both sides and is
  never opened), then a bias row is added and the result is cut at zero (`biasRelu`), with the previous layer's output
  added back in the two middle layers (`biasReluRes`); the last layer ends in a row-wise log-softmax (`biasLogSoftmax`):
  with z = a + b, m the row's maximum and s the row's sum of exp (z − m), the entry is (z − m) − log s.
-/
import Idealize.ShloMosaic.Lib.ValueIdx
import Idealize.ShloMosaic.PureOps.Ideal.Laws

noncomputable section

open scoped BigOperators

namespace Cert.Spec

open Idealize.ShloMosaic Idealize.ShloMosaic.ValueIdx

/-- The row of a rank-2 index, below the literal extent. -/
abbrev row {n0 n1 : ℕ} (i : (⟨2, ![n0, n1]⟩ : Shape).Idx) : Fin n0 := ⟨(i 0).val, idx2_lt0 i⟩
/-- The column of a rank-2 index, below the literal extent. -/
abbrev col {n0 n1 : ℕ} (i : (⟨2, ![n0, n1]⟩ : Shape).Idx) : Fin n1 := ⟨(i 1).val, idx2_lt1 i⟩

theorem ix2_row_col {n0 n1 : ℕ} (i : (⟨2, ![n0, n1]⟩ : Shape).Idx) : ix2 (row i) (col i) = i :=
  funext fun a => match a with | ⟨0, _⟩ => rfl | ⟨1, _⟩ => rfl

/-- Each row times the weight matrix: entry (r, c) is the sum over k of h (r, k) · w (k, c). -/
def dense {R K M : ℕ} (h : FVec Ideal ⟨2, ![R, K]⟩ .f32) (w : FVec Ideal ⟨2, ![K, M]⟩ .f32) : FVec Ideal ⟨2, ![R, M]⟩ .f32 :=
  fun i => ∑ k : Fin K, h (ix2 (row i) k) * w (ix2 k (col i))

/-- The bias row added to every row. -/
def biased {R M : ℕ} (a : FVec Ideal ⟨2, ![R, M]⟩ .f32) (b : FVec Ideal ⟨1, ![M]⟩ .f32) : FVec Ideal ⟨2, ![R, M]⟩ .f32 :=
  fun i => a i + b (ix1 (col i))

/-- Bias, then the cut at zero. -/
def biasRelu {R M : ℕ} (a : FVec Ideal ⟨2, ![R, M]⟩ .f32) (b : FVec Ideal ⟨1, ![M]⟩ .f32) : FVec Ideal ⟨2, ![R, M]⟩ .f32 :=
  fun i => max (biased a b i) (Ideal.ofBits .f32 0x00000000#32)

/-- Bias, the cut at zero, and the earlier layer's output added back. -/
def biasReluRes {R M : ℕ} (a : FVec Ideal ⟨2, ![R, M]⟩ .f32) (b : FVec Ideal ⟨1, ![M]⟩ .f32) (r : FVec Ideal ⟨2, ![R, M]⟩ .f32) :
    FVec Ideal ⟨2, ![R, M]⟩ .f32 :=
  fun i => max (biased a b i) (Ideal.ofBits .f32 0x00000000#32) + r i

/-- A row's maximum, folded from −∞. -/
def rowMax {R M : ℕ} (z : FVec Ideal ⟨2, ![R, M]⟩ .f32) (p : Fin R) : EReal :=
  (Finset.univ : Finset (Fin M)).fold max (Ideal.ofBits .f32 0xFF800000#32) (fun k => z (ix2 p k))

/-- The entries with their row's maximum taken off. -/
def centred {R M : ℕ} (z : FVec Ideal ⟨2, ![R, M]⟩ .f32) : FVec Ideal ⟨2, ![R, M]⟩ .f32 :=
  fun i => z i - rowMax z (row i)

/-- Row-wise log-softmax of the biased entries. -/
def biasLogSoftmax {R M : ℕ} (a : FVec Ideal ⟨2, ![R, M]⟩ .f32) (b : FVec Ideal ⟨1, ![M]⟩ .f32) : FVec Ideal ⟨2, ![R, M]⟩ .f32 :=
  fun i => centred (biased a b) i - Ideal.log (∑ k : Fin M, Ideal.exp (centred (biased a b) (ix2 (row i) k)))

/-- The maximum with −∞ is the other operand. -/
theorem max_ninf (x : EReal) : max (Ideal.ofBits .f32 0xFF800000#32) x = x := by
  simp [Ideal.ofBits, Ideal.ieee]

/-- The log-softmax of a row depends on that row and on the bias only: equal rows (of arrays of any heights) and equal biases
    give equal entries. -/
theorem biasLogSoftmax_congr {R R' M : ℕ} (x : FVec Ideal ⟨2, ![R, M]⟩ .f32) (x' : FVec Ideal ⟨2, ![R', M]⟩ .f32) (v v' : FVec Ideal ⟨1, ![M]⟩ .f32)
    (p : Fin R) (p' : Fin R') (q : Fin M) (hrow : ∀ k : Fin M, x (ix2 p k) = x' (ix2 p' k)) (hv : ∀ k : Fin M, v (ix1 k) = v' (ix1 k)) :
    biasLogSoftmax x v (ix2 p q) = biasLogSoftmax x' v' (ix2 p' q) := by
  have hz : ∀ k : Fin M, biased x v (ix2 p k) = biased x' v' (ix2 p' k) := fun k => congrArg₂ (· + ·) (hrow k) (hv k)
  have hm : rowMax (biased x v) p = rowMax (biased x' v') p' := by
    unfold rowMax
    exact congrArg (Finset.fold max (Ideal.ofBits .f32 0xFF800000#32) · Finset.univ) (funext hz)
  have hc : ∀ k : Fin M, centred (biased x v) (ix2 p k) = centred (biased x' v') (ix2 p' k) := fun k => congrArg₂ (· - ·) (hz k) hm
  unfold biasLogSoftmax
  exact congrArg₂ (· - ·) (hc q) (congrArg Ideal.log (Finset.sum_congr rfl fun k _ => congrArg Ideal.exp (hc k)))

end Cert.Spec

end
-- ==== Proof.Region0.lean ====
/-
  The first dense product, tile by tile.

  The kernel multiplies ten tiles of 10000 rows of the node features by the whole weight matrix. At the exact instance a
  tile's entry (p, j) is the sum over k of x (p, k) · w (k, j), which is the entry of row 10000·t + p of the whole product;
  the ten tiles cover the output array, so after the region it holds the whole product.
-/
import proofs.«112477_j43018392437092_1_alg».proof.Proof.Gen.KernelIdeal.Frame
import Idealize.ShloMosaic.Lib.Pipeline.Value
import proofs.«112477_j43018392437092_1_alg».proof.Proof.LibPlainLayers
import proofs.«112477_j43018392437092_1_alg».proof.Proof.LibLayers

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile of the product at an entry: the plain sum over the contracted axis (the change of format before the product is
    the identity on the extended reals). -/
theorem tile_apply (x0 : Vec Ideal S10000x128 .f32) (x1 : Vec Ideal S128x128 .f32) (p : Fin 10000) (j : Fin 128) :
    k0_pay1 x0 x1 (ix2 p j) = ∑ k : Fin 128, x0 (ix2 p k) * x1 (ix2 k j) := by
  unfold k0_pay1
  exact Cert.PlainLayers.plainMM_of_eq dot_S10000x128_S128x128_S10000x128_1_0_0_1_n_n rfl none _ _ p j

/-- A tile whose rows are rows of the whole array `A` and whose weights are `W` computes, at an entry, the whole product's entry
    of that row. -/
theorem tile_eq_dense (A : FVec Ideal S100000x128 .f32) (W : FVec Ideal S128x128 .f32) (x0 : Vec Ideal S10000x128 .f32) (x1 : Vec Ideal S128x128 .f32)
    (j : S10000x128.Idx) (i : S100000x128.Idx)
    (h0 : ∀ k : Fin 128, x0 (ix2 (Cert.Spec.row j) k) = A (ix2 (Cert.Spec.row i) k))
    (h1 : ∀ k : Fin 128, x1 (ix2 k (Cert.Spec.col j)) = W (ix2 k (Cert.Spec.col i))) :
    k0_pay1 x0 x1 j = Cert.Spec.dense A W i := by
  refine (congrArg (k0_pay1 x0 x1) (Cert.Spec.ix2_row_col j).symm).trans ?_
  rw [tile_apply]
  unfold Cert.Spec.dense
  exact Finset.sum_congr rfl fun k _ => congrArg₂ (· * ·) (h0 k) (h1 k)

/-- The printed index maps, decided over the ten grid points: the row tile of the input moves with the output's, the
    weights stay, and the output's tile at point `t` is tile `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product of the arrays the region finds. -/
theorem flushed_eq (c : Dev nD) (t : Fin cfg0.N) :
    (dat0 V c).flushed 2 t = ((cfg0.win 2).blk t).view.read (Elt Ideal)
      (Cert.Spec.dense (V c main_arg0 : S100000x128.Idx → Elt Ideal .f32) (V c main_arg2 : S128x128.Idx → Elt Ideal .f32)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  refine tile_eq_dense _ _ _ _ j (((cfg0.win 2).blk t).view.emb j) (fun k => ?_) (fun k => ?_)
  · show V c main_arg0 (((cfg0.win 0).blk t).view.emb (ix2 (Cert.Spec.row j) k)) = V c main_arg0 _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (Cert.Spec.col j))) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s tile iff each coordinate is in the tile's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten row tiles cover the output array: row `r` is in tile `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 10000, by rw [show cfg0.N = 10 from N_0]; omega⟩, flush0_2 _, ?_⟩
  rw [mem_blk]
  obtain ⟨e0, e1, e2, e3, e4, e5⟩ := idx_facts ⟨(i 0).val / 10000, by rw [show cfg0.N = 10 from N_0]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- After the region the output array holds the whole product of the two arrays the region found. -/
theorem final (c : Dev nD) :
    (dat0 V c).arrAt 2 cfg0.N = Cert.Spec.dense (V c main_arg0 : S100000x128.Idx → Elt Ideal .f32) (V c main_arg2 : S128x128.Idx → Elt Ideal .f32) :=
  (dat0 V c).arrAt_eq_of_cover 2 _ (fun t _ => flushed_eq V c t) cover

end Cert.KernelIdeal.Region0

end
-- ==== Proof.LibBiasRows.lean ====
/-
  General lemmas for kernel bodies that work on a tile of rows with a bias row, read at an entry over the extended reals
  (the whole-array functions they are stated against are LibLayers.lean's).

  * `biasRow_apply`: a [b] vector recast as one row and repeated down the rows reads, at (p, q), the vector at q.
  * `biasRelu_apply` / `biasReluRes_apply`: tile plus bias row, cut at zero (and another tile added back), at (p, q).
  * `rowMaxCol_apply`: a tile's maximum along its last axis from −∞, kept as a column and repeated along the rows, reads at
    (p, q) the fold of max over row p.
  * `logSoftmaxRows_apply`: bias, row maximum taken off, exp, row sum, log, taken off — the row-wise log-softmax of the biased
    tile at (p, q).
-/
import Idealize.ShloMosaic.Lib.ValueIdx
import Idealize.ShloMosaic.Lib.ValueLayout
import Idealize.ShloMosaic.Lib.Pipeline.Value
import Idealize.ShloMosaic.PureOps.Ideal.Laws
import proofs.«112477_j43018392437092_1_alg».proof.Proof.LibLayers
import proofs.«112477_j43018392437092_1_alg».proof.Proof.LibColumns

noncomputable section

open scoped BigOperators

namespace Cert.BiasRows

open Idealize.ShloMosaic Idealize.ShloMosaic.ValueIdx

variable {a b : ℕ}

/-- A [b] vector recast as one row and repeated down the rows reads, at (p, q), the vector at q. -/
theorem biasRow_apply (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The tile (recast to its own shape) plus the bias row, at (p, q). -/
theorem biased_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (shapeCast ⟨2, ![a, b]⟩ x hs) (broadcastTo ⟨2, ![a, b]⟩ (shapeCast ⟨2, ![1, b]⟩ v hc) hb) (ix2 p q) = Spec.biased x v (ix2 p q) :=
  congrArg₂ (· + ·) (congrFun (shapeCast_self x hs) _) (biasRow_apply v hc hb p q)

/-- Tile plus bias row, cut at zero, at (p, q). -/
theorem biasRelu_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32)) (ix2 p q)
      = Spec.biasRelu x v (ix2 p q) :=
  congrArg₂ max (biased_apply x v hs hc hb p q) rfl

/-- Tile plus bias row, cut at zero, plus another tile (recast to its own shape), at (p, q). -/
theorem biasReluRes_apply (x r : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32))) (shapeCast ⟨2, ![a, b]⟩ r hs) (ix2 p q)
      = Spec.biasReluRes x v r (ix2 p q) :=
  congrArg₂ (· + ·) (biasRelu_apply x v hs hc hb p q) (congrFun (shapeCast_self r hs) _)

/-- A tile's maximum along its last axis from −∞, at p: the fold of max over row p. -/
theorem rowMax_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ) (p : Fin a) :
    multiReduction .maximumf [1] ⟨1, ![a]⟩ z 0xFF800000#32 hr hφ hmax (ix1 p) = Spec.rowMax z p := by
  refine (Ideal.multiReduction_maximumf_single z _ hr hφ hmax (ix1 p)).trans ?_
  unfold Spec.rowMax
  refine congrArg (Finset.fold max (Ideal.ofBits .f32 0xFF800000#32) · Finset.univ) (funext fun k => ?_)
  refine congrArg z (funext fun c => Fin.ext ?_)
  rw [hr.lift_val]
  match c with
  | ⟨0, _⟩ => rfl
  | ⟨1, _⟩ => rfl

/-- That maximum kept as a column and repeated along the rows, at (p, q). -/
theorem rowMaxCol_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    broadcastTo ⟨2, ![a, b]⟩ (shapeCast ⟨2, ![a, 1]⟩ (multiReduction .maximumf [1] ⟨1, ![a]⟩ z 0xFF800000#32 hr hφ hmax) hcol) hbc (ix2 p q)
      = Spec.rowMax z p :=
  ((Cert.Columns.broadcastTo_a1_ab_apply _ hbc p q).trans (Cert.DenseRows.shapeCast_a_a1_apply _ hcol p 0)).trans (rowMax_apply z hr hφ hmax p)

/-- Bias, the row's maximum taken off, exp, the row's sum, log, taken off: the row-wise log-softmax of the biased tile. -/
theorem logSoftmaxRows_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    subf (subf (addf (shapeCast ⟨2, ![a, b]⟩ x hs) (broadcastTo ⟨2, ![a, b]⟩ (shapeCast ⟨2, ![1, b]⟩ v hc) hb))
          (broadcastTo ⟨2, ![a, b]⟩ (shapeCast ⟨2, ![a, 1]⟩ (multiReduction .maximumf [1] ⟨1, ![a]⟩
            (addf (shapeCast ⟨2, ![a, b]⟩ x hs) (broadcastTo ⟨2, ![a, b]⟩ (shapeCast ⟨2, ![1, b]⟩ v hc) hb)) 0xFF800000#32 hr hφ hmax) hcol) hbc))
        (broadcastTo ⟨2, ![a, b]⟩ (log (shapeCast ⟨2, ![a, 1]⟩ (multiReduction .add [1] ⟨1, ![a]⟩
          (exp (subf (addf (shapeCast ⟨2, ![a, b]⟩ x hs) (broadcastTo ⟨2, ![a, b]⟩ (shapeCast ⟨2, ![1, b]⟩ v hc) hb))
            (broadcastTo ⟨2, ![a, b]⟩ (shapeCast ⟨2, ![a, 1]⟩ (multiReduction .maximumf [1] ⟨1, ![a]⟩
              (addf (shapeCast ⟨2, ![a, b]⟩ x hs) (broadcastTo ⟨2, ![a, b]⟩ (shapeCast ⟨2, ![1, b]⟩ v hc) hb)) 0xFF800000#32 hr hφ hmax) hcol) hbc)))
          0x00000000#32 hr hφ hadd) hcol)) hbc) (ix2 p q)
      = Spec.biasLogSoftmax x v (ix2 p q) := by
  have hz : addf (shapeCast ⟨2, ![a, b]⟩ x hs) (broadcastTo ⟨2, ![a, b]⟩ (shapeCast ⟨2, ![1, b]⟩ v hc) hb) = Spec.biased x v :=
    funext fun j => by rw [eq_ix2 j]; exact biased_apply x v hs hc hb (j 0) (j 1)
  rw [hz]
  have hcen : subf (Spec.biased x v) (broadcastTo ⟨2, ![a, b]⟩ (shapeCast ⟨2, ![a, 1]⟩ (multiReduction .maximumf [1] ⟨1, ![a]⟩
      (Spec.biased x v) 0xFF800000#32 hr hφ hmax) hcol) hbc) = Spec.centred (Spec.biased x v) :=
    funext fun j => by
      rw [eq_ix2 j]
      exact congrArg (Spec.biased x v (ix2 (j 0) (j 1)) - ·) (rowMaxCol_apply (Spec.biased x v) hr hφ hmax hcol hbc (j 0) (j 1))
  rw [hcen]
  unfold Spec.biasLogSoftmax
  refine congrArg (Spec.centred (Spec.biased x v) (ix2 p q) - ·) ?_
  refine (Cert.Columns.broadcastTo_a1_ab_apply _ hbc p q).trans ?_
  show Ideal.log (shapeCast ⟨2, ![a, 1]⟩ (multiReduction .add [1] ⟨1, ![a]⟩ (exp (Spec.centred (Spec.biased x v))) 0x00000000#32 hr hφ hadd) hcol (ix2 p (0 : Fin 1))) = _
  refine congrArg Ideal.log ?_
  exact Cert.Columns.keepdimsSum_apply _ _ hr hφ hadd hcol p 0

end Cert.BiasRows

end
-- ==== Proof.Region1.lean ====
/-
  The bias and the cut at zero, tile by tile.

  The kernel adds the bias row to ten tiles of 10000 rows of the aggregated features and takes the maximum with zero. An
  entry of a tile depends on the same entry of the input tile and on the bias of its column only, so tile `t` of the output
  is tile `t` of the whole-array function; the ten tiles cover the output array.
-/
import proofs.«112477_j43018392437092_1_alg».proof.Proof.Gen.KernelIdeal.Frame
import Idealize.ShloMosaic.Lib.Pipeline.Value
import proofs.«112477_j43018392437092_1_alg».proof.Proof.LibBiasRows
import proofs.«112477_j43018392437092_1_alg».proof.Proof.LibLayers

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile at an entry: the input's entry plus the bias of the column, cut at zero (the bias row is the bias vector laid as one row). -/
theorem tile_apply (x0 : Vec Ideal S10000x128 .f32) (vec : FVec Ideal S128 .f32) (hc : S128.ShapeCasts S1x128) (p : Fin 10000) (q : Fin 128) :
    k1_pay1 x0 (shapeCast S1x128 vec hc) (ix2 p q) = Cert.Spec.biasRelu x0 vec (ix2 p q) := by
  unfold k1_pay1
  rw [shapeCast_self (shapeCast S1x128 vec hc) shapeCasts_S1x128_S1x128]
  exact Cert.BiasRows.biasRelu_apply x0 vec _ hc _ p q

/-- A tile entry that is an entry of the whole array `A`, in the same column, computes the whole-array function's entry there. -/
theorem tile_eq (A : FVec Ideal S100000x128 .f32) (vec : FVec Ideal S128 .f32) (hc : S128.ShapeCasts S1x128) (x0 : Vec Ideal S10000x128 .f32)
    (j : S10000x128.Idx) (i : S100000x128.Idx) (h0 : x0 j = A i) (hcol : (i 1).val = (j 1).val) :
    k1_pay1 x0 (shapeCast S1x128 vec hc) j = Cert.Spec.biasRelu A vec i := by
  have e := tile_apply x0 vec hc (Cert.Spec.row j) (Cert.Spec.col j)
  rw [Cert.Spec.ix2_row_col j] at e
  rw [e]
  unfold Cert.Spec.biasRelu Cert.Spec.biased
  rw [h0, show Cert.Spec.col j = Cert.Spec.col i from Fin.ext hcol.symm]

/-- The printed index maps, decided over the ten grid points: the row tile of the input moves with the output's, the bias
    row stays, and the output's tile at point `t` is tile `t`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the whole-array function of the arrays the region finds, the bias row being the
    vector `vec` laid as one row. -/
theorem flushed_eq (c : Dev nD) (vec : FVec Ideal S128 .f32) (hc : S128.ShapeCasts S1x128)
    (hV : (V c main_v44 : S1x128.Idx → Elt Ideal .f32) = shapeCast S1x128 vec hc) (t : Fin cfg1.N) :
    (dat1 V c).flushed 2 t = ((cfg1.win 2).blk t).view.read (Elt Ideal)
      (Cert.Spec.biasRelu (V c main_v43 : S100000x128.Idx → Elt Ideal .f32) vec) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts t
  have hrow : (iblk1 V c 1 t : Vec Ideal S1x128 .f32) = shapeCast S1x128 vec hc := by
    funext y
    refine Eq.trans ?_ (congrFun hV y)
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  refine (congrArg (k1_pay1 (iblk1 V c 0 t)) hrow).trans ?_
  funext j
  refine tile_eq _ vec hc _ j (((cfg1.win 2).blk t).view.emb j) ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show win1_2.index t (1 : Fin 2) * 128 + 1 * (j 1).val = (j 1).val; omega

/-- An index of the output array is in point `t`'s tile iff each coordinate is in the tile's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten row tiles cover the output array: row `r` is in tile `r / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 10000, by rw [show cfg1.N = 10 from N_1]; omega⟩, flush1_2 _, ?_⟩
  rw [mem_blk]
  obtain ⟨e0, e1, e2, e3, e4, e5⟩ := idx_facts ⟨(i 0).val / 10000, by rw [show cfg1.N = 10 from N_1]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- After the region the output array holds the whole-array function of the array the region found and the bias vector. -/
theorem final (c : Dev nD) (vec : FVec Ideal S128 .f32) (hc : S128.ShapeCasts S1x128)
    (hV : (V c main_v44 : S1x128.Idx → Elt Ideal .f32) = shapeCast S1x128 vec hc) :
    (dat1 V c).arrAt 2 cfg1.N = Cert.Spec.biasRelu (V c main_v43 : S100000x128.Idx → Elt Ideal .f32) vec :=
  (dat1 V c).arrAt_eq_of_cover 2 _ (fun t _ => flushed_eq V c vec hc hV t) cover

end Cert.KernelIdeal.Region1

end
-- ==== Proof.Region2.lean ====
/-
  The second dense product, tile by tile.

  The kernel multiplies ten tiles of 10000 rows of the hidden features by the whole 128-by-18 weight matrix. At the exact
  instance a tile's entry (p, j) is the sum over k of h (p, k) · w (k, j), which is the entry of row 10000·t + p of the whole
  product; the ten tiles cover the output array, so after the region it holds the whole product.
-/
import proofs.«112477_j43018392437092_1_alg».proof.Proof.Gen.KernelIdeal.Frame
import Idealize.ShloMosaic.Lib.Pipeline.Value
import proofs.«112477_j43018392437092_1_alg».proof.Proof.LibPlainLayers
import proofs.«112477_j43018392437092_1_alg».proof.Proof.LibLayers

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile of the product at an entry: the plain sum over the contracted axis (the recast of the tile to its own shape and the change of format before
    the product are the identity on the extended reals). -/
theorem tile_apply (x0 : Vec Ideal S10000x128 .f32) (x1 : Vec Ideal S128x18 .f32) (p : Fin 10000) (j : Fin 18) :
    k2_pay1 x0 x1 (ix2 p j) = ∑ k : Fin 128, x0 (ix2 p k) * x1 (ix2 k j) := by
  unfold k2_pay1
  rw [shapeCast_self x0 shapeCasts_S10000x128_S10000x128]
  exact Cert.PlainLayers.plainMM_of_eq dot_S10000x128_S128x18_S10000x18_1_0_0_1_n_n rfl none _ _ p j

/-- A tile whose rows are rows of the whole array `A` and whose weights are `W` computes, at an entry, the whole product's entry
    of that row. -/
theorem tile_eq_dense (A : FVec Ideal S100000x128 .f32) (W : FVec Ideal S128x18 .f32) (x0 : Vec Ideal S10000x128 .f32) (x1 : Vec Ideal S128x18 .f32)
    (j : S10000x18.Idx) (i : S100000x18.Idx)
    (h0 : ∀ k : Fin 128, x0 (ix2 (Cert.Spec.row j) k) = A (ix2 (Cert.Spec.row i) k))
    (h1 : ∀ k : Fin 128, x1 (ix2 k (Cert.Spec.col j)) = W (ix2 k (Cert.Spec.col i))) :
    k2_pay1 x0 x1 j = Cert.Spec.dense A W i := by
  refine (congrArg (k2_pay1 x0 x1) (Cert.Spec.ix2_row_col j).symm).trans ?_
  rw [tile_apply]
  unfold Cert.Spec.dense
  exact Finset.sum_congr rfl fun k _ => congrArg₂ (· * ·) (h0 k) (h1 k)

/-- The printed index maps, decided over the ten grid points: the row tile of the input moves with the output's, the
    weights stay, and the output's tile at point `t` is tile `t`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the whole product of the arrays the region finds. -/
theorem flushed_eq (c : Dev nD) (t : Fin cfg2.N) :
    (dat2 V c).flushed 2 t = ((cfg2.win 2).blk t).view.read (Elt Ideal)
      (Cert.Spec.dense (V c main_v45 : S100000x128.Idx → Elt Ideal .f32) (V c main_arg4 : S128x18.Idx → Elt Ideal .f32)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x18) hz]
  obtain ⟨e0, e1, e2, e3, e4, e5⟩ := idx_facts t
  funext j
  refine tile_eq_dense _ _ _ _ j (((cfg2.win 2).blk t).view.emb j) (fun k => ?_) (fun k => ?_)
  · show V c main_v45 (((cfg2.win 0).blk t).view.emb (ix2 (Cert.Spec.row j) k)) = V c main_v45 _
    refine congrArg (V c main_v45) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg4 (((cfg2.win 1).blk t).view.emb (ix2 k (Cert.Spec.col j))) = V c main_arg4 _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 18 + 1 * (j 1).val = win2_2.index t (1 : Fin 2) * 18 + 1 * (j 1).val; omega

/-- An index of the output array is in point `t`'s tile iff each coordinate is in the tile's range on its axis. -/
theorem mem_blk (t : Fin cfg2.N) (i : S100000x18.Idx) :
    i ∈ ((cfg2.win 2).blk t).view.set ↔ ∀ a : Fin 2, win2_2.index t a * S10000x18.size a ≤ (i a).val ∧ (i a).val < win2_2.index t a * S10000x18.size a + S10000x18.size a := by
  show i ∈ ((View.whole main_v46).slice (win2_2.rect t)).set ↔ _
  rw [View.set_slice_whole, Rect.mem_set_unit]
  exact Iff.rfl

/-- The ten row tiles cover the output array: row `r` is in tile `r / 10000`. -/
theorem cover (i : S100000x18.Idx) : ∃ t : Fin cfg2.N, (cfg2.win 2).flush t = true ∧ i ∈ ((cfg2.win 2).blk t).view.set := by
  have hi0 : (i 0).val < 100000 := (i 0).isLt
  have hi1 : (i 1).val < 18 := (i 1).isLt
  refine ⟨⟨(i 0).val / 10000, by rw [show cfg2.N = 10 from N_2]; omega⟩, flush2_2 _, ?_⟩
  rw [mem_blk]
  obtain ⟨e0, e1, e2, e3, e4, e5⟩ := idx_facts ⟨(i 0).val / 10000, by rw [show cfg2.N = 10 from N_2]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 18 ≤ (i 1).val ∧ (i 1).val < win2_2.index _ (1 : Fin 2) * 18 + 18; rw [e5]; omega

/-- After the region the output array holds the whole product of the two arrays the region found. -/
theorem final (c : Dev nD) :
    (dat2 V c).arrAt 2 cfg2.N = Cert.Spec.dense (V c main_v45 : S100000x128.Idx → Elt Ideal .f32) (V c main_arg4 : S128x18.Idx → Elt Ideal .f32) :=
  (dat2 V c).arrAt_eq_of_cover 2 _ (fun t _ => flushed_eq V c t) cover

end Cert.KernelIdeal.Region2

end
-- ==== Proof.Region3.lean ====
/-
  The bias and the row-wise log-softmax, tile by tile.

  The kernel adds the bias row to ten tiles of 10000 rows of the aggregated class scores and, row by row, takes off the row's
  maximum and the logarithm of the row's sum of exponentials. A row of the output depends on the same row of the input and on
  the bias only, so tile `t` of the output is tile `t` of the whole-array log-softmax; the ten tiles cover the output array.
-/
import proofs.«112477_j43018392437092_1_alg».proof.Proof.Gen.KernelIdeal.Frame
import Idealize.ShloMosaic.Lib.Pipeline.Value
import proofs.«112477_j43018392437092_1_alg».proof.Proof.LibBiasRows
import proofs.«112477_j43018392437092_1_alg».proof.Proof.LibLayers

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One tile at an entry: the row-wise log-softmax of the biased tile (the bias row is the bias vector laid as one row). -/
theorem tile_apply (x0 : Vec Ideal S10000x18 .f32) (vec : FVec Ideal S18 .f32) (hc : S18.ShapeCasts S1x18) (p : Fin 10000) (q : Fin 18) :
    k3_pay1 x0 (shapeCast S1x18 vec hc) (ix2 p q) = Cert.Spec.biasLogSoftmax x0 vec (ix2 p q) := by
  unfold k3_pay1
  rw [shapeCast_self (shapeCast S1x18 vec hc) shapeCasts_S1x18_S1x18]
  exact Cert.BiasRows.logSoftmaxRows_apply x0 vec _ hc _ _ _ _ _ _ _ p q

/-- A tile row that is a row of the whole array `A` computes, at a column, the whole-array log-softmax's entry of that row: a
    row's log-softmax depends on that row and the bias only. -/
theorem tile_eq (A : FVec Ideal S100000x18 .f32) (vec : FVec Ideal S18 .f32) (hc : S18.ShapeCasts S1x18) (x0 : Vec Ideal S10000x18 .f32)
    (j : S10000x18.Idx) (i : S100000x18.Idx) (h0 : ∀ k : Fin 18, x0 (ix2 (Cert.Spec.row j) k) = A (ix2 (Cert.Spec.row i) k))
    (hcol : (i 1).val = (j 1).val) :
    k3_pay1 x0 (shapeCast S1x18 vec hc) j = Cert.Spec.biasLogSoftmax A vec i := by
  have e := tile_apply x0 vec hc (Cert.Spec.row j) (Cert.Spec.col j)
  rw [Cert.Spec.ix2_row_col j] at e
  rw [e, ← Cert.Spec.ix2_row_col j, ← Cert.Spec.ix2_row_col i, show Cert.Spec.col i = Cert.Spec.col j from Fin.ext hcol]
  exact Cert.Spec.biasLogSoftmax_congr x0 A vec vec (Cert.Spec.row j) (Cert.Spec.row i) (Cert.Spec.col j) h0 (fun _ => rfl)

/-- The printed index maps, decided over the ten grid points: the row tile of the input moves with the output's, the bias
    row stays, and the output's tile at point `t` is tile `t`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the whole-array function of the arrays the region finds, the bias row being the
    vector `vec` laid as one row. -/
theorem flushed_eq (c : Dev nD) (vec : FVec Ideal S18 .f32) (hc : S18.ShapeCasts S1x18)
    (hV : (V c main_v60 : S1x18.Idx → Elt Ideal .f32) = shapeCast S1x18 vec hc) (t : Fin cfg3.N) :
    (dat3 V c).flushed 2 t = ((cfg3.win 2).blk t).view.read (Elt Ideal)
      (Cert.Spec.biasLogSoftmax (V c main_v59 : S100000x18.Idx → Elt Ideal .f32) vec) := by
  show (cfg3.win 2).cut (grid3.coords t) ((dat3 V c).after 2 t) = _
  rw [after3_2]
  unfold out3_2
  rw [View.canon_unit_zero hz]
  simp only [View.ld_unit_zero (S := S10000x18) hz, View.ld_unit_zero (S := S1x18) hz]
  obtain ⟨e0, e1, e2, e3, e4, e5⟩ := idx_facts t
  have hrow : (iblk3 V c 1 t : Vec Ideal S1x18 .f32) = shapeCast S1x18 vec hc := by
    funext y
    refine Eq.trans ?_ (congrFun hV y)
    show V c main_v60 (((cfg3.win 1).blk t).view.emb y) = V c main_v60 y
    refine congrArg (V c main_v60) (funext fun a => Fin.ext ?_)
    match a with
    | ⟨0, _⟩ => show win3_1.index t (0 : Fin 2) * 1 + 1 * (y 0).val = (y 0).val; omega
    | ⟨1, _⟩ => show win3_1.index t (1 : Fin 2) * 18 + 1 * (y 1).val = (y 1).val; omega
  refine (congrArg (k3_pay1 (iblk3 V c 0 t)) hrow).trans ?_
  funext j
  refine tile_eq _ vec hc _ j (((cfg3.win 2).blk t).view.emb j) (fun k => ?_) ?_
  · show V c main_v59 (((cfg3.win 0).blk t).view.emb (ix2 (Cert.Spec.row j) k)) = V c main_v59 _
    refine congrArg (V c main_v59) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 18 + 1 * k.val = k.val; omega
  · show win3_2.index t (1 : Fin 2) * 18 + 1 * (j 1).val = (j 1).val; omega

/-- An index of the output array is in point `t`'s tile iff each coordinate is in the tile's range on its axis. -/
theorem mem_blk (t : Fin cfg3.N) (i : S100000x18.Idx) :
    i ∈ ((cfg3.win 2).blk t).view.set ↔ ∀ a : Fin 2, win3_2.index t a * S10000x18.size a ≤ (i a).val ∧ (i a).val < win3_2.index t a * S10000x18.size a + S10000x18.size a := by
  show i ∈ ((View.whole main_v61).slice (win3_2.rect t)).set ↔ _
  rw [View.set_slice_whole, Rect.mem_set_unit]
  exact Iff.rfl

/-- The ten row tiles cover the output array: row `r` is in tile `r / 10000`. -/
theorem cover (i : S100000x18.Idx) : ∃ t : Fin cfg3.N, (cfg3.win 2).flush t = true ∧ i ∈ ((cfg3.win 2).blk t).view.set := by
  have hi0 : (i 0).val < 100000 := (i 0).isLt
  have hi1 : (i 1).val < 18 := (i 1).isLt
  refine ⟨⟨(i 0).val / 10000, by rw [show cfg3.N = 10 from N_3]; omega⟩, flush3_2 _, ?_⟩
  rw [mem_blk]
  obtain ⟨e0, e1, e2, e3, e4, e5⟩ := idx_facts ⟨(i 0).val / 10000, by rw [show cfg3.N = 10 from N_3]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ (i 0).val ∧ (i 0).val < (i 0).val / 10000 * 10000 + 10000; omega
  | ⟨1, _⟩ => show win3_2.index _ (1 : Fin 2) * 18 ≤ (i 1).val ∧ (i 1).val < win3_2.index _ (1 : Fin 2) * 18 + 18; rw [e5]; omega

/-- After the region the output array holds the whole-array function of the array the region found and the bias vector. -/
theorem final (c : Dev nD) (vec : FVec Ideal S18 .f32) (hc : S18.ShapeCasts S1x18)
    (hV : (V c main_v60 : S1x18.Idx → Elt Ideal .f32) = shapeCast S1x18 vec hc) :
    (dat3 V c).arrAt 2 cfg3.N = Cert.Spec.biasLogSoftmax (V c main_v59 : S100000x18.Idx → Elt Ideal .f32) vec :=
  (dat3 V c).arrAt_eq_of_cover 2 _ (fun t _ => flushed_eq V c vec hc hV t) cover

end Cert.KernelIdeal.Region3

end
-- ==== Proof.Spec.lean ====
/-
  The two-layer graph network as one function of the six arguments, over the extended reals.

  The edge list (with one self-loop per node appended) fixes, for every edge, a source row, a target row and a
  normalisation weight; these are the same host operations in both programs and are never opened here: `edgeSum128` and
  `edgeSum18` gather the rows of an array along the edges' sources, scale each by its edge's weight and add it into its
  target row — 128 and 18 features wide. Around them the network is
      x ↦ x·W₁ ↦ edge sum ↦ + b₁, cut at zero ↦ ·W₂ ↦ edge sum ↦ + b₂, row-wise log-softmax
  with the dense products, the bias-and-cut and the log-softmax as whole-array functions read index by index.
-/
import proofs.«112477_j43018392437092_1_alg».proof.Proof.RefRead
import proofs.«112477_j43018392437092_1_alg».proof.Proof.LibLayers

noncomputable section

namespace Cert.Net

open Cert.ReferenceIdeal Cert.ReferenceIdeal.ReadP Idealize.ShloMosaic

section
variable {F : FTy → Type} [FloatOps F]

/-- The rows of a 128-wide array gathered along the edges' sources, scaled by the edges' weights and added into the edges'
    targets: the host operations of the reference between its first product and its first bias, as one function of the
    array and the edge list. -/
def edgeSum128 (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (val_main_v41 (F := F)) (val_main_v42 (F := F) e)
    (mulf (Host.gather gather_S100000x128_S1700000x1_S1700000x128_1_0_n_n_0_1_1128 h (val_main_v36 (F := F) e)) (val_main_v39 (F := F) e))

/-- The same for an 18-wide array. -/
def edgeSum18 (h : (⟨S100000x18, .f32⟩ : BufTy).Contents (Elt F)) (e : (⟨S2x1600000, .i32⟩ : BufTy).Contents (Elt F)) :
    (⟨S100000x18, .f32⟩ : BufTy).Contents (Elt F) :=
  Host.scatterAdd scatter_S100000x18_S1700000x1_S1700000x18_1_0_0_1 (val_main_v59 (F := F)) (val_main_v60 (F := F) e)
    (mulf (Host.gather gather_S100000x18_S1700000x1_S1700000x18_1_0_n_n_0_1_118 h (val_main_v54 (F := F) e)) (val_main_v57 (F := F) e))

end

/-- The network's output: the log-probabilities of the 18 classes at every node. -/
def net (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x18, .f32⟩ : BufTy).Contents (Elt Ideal)) (b2 : (⟨S18, .f32⟩ : BufTy).Contents (Elt Ideal)) :
    (⟨S100000x18, .f32⟩ : BufTy).Contents (Elt Ideal) :=
  Cert.Spec.biasLogSoftmax (edgeSum18 (F := Ideal) (Cert.Spec.dense (Cert.Spec.biasRelu (edgeSum128 (F := Ideal) (Cert.Spec.dense x w1) e) b1) w2) e) b2

end Cert.Net

end
-- ==== Proof.KernelChain.lean ====
/-
  The kernel program's result is the network function `Cert.Net.net` of its arguments.

  The contents of the buffers are followed from the launch through the program's nine segments. The first three host
  stretches leave the edges' sources, targets and weights — the reference's own operations on the edge list, by name. Each
  kernel region leaves in its output array the whole-array function of the arrays it found (the four region modules); each
  host stretch between them is the edge sum of what the region before it left; every buffer a segment does not write keeps
  its contents. Read at the result buffer after the last region, the fold is the network function.

  The host stretches and what the segments keep do not depend on what a float is and are stated for any float values; the
  regions are read at the exact instance.
-/
import proofs.«112477_j43018392437092_1_alg».proof.Proof.Gen.KernelIdeal.Frame
import proofs.«112477_j43018392437092_1_alg».proof.Proof.Region0
import proofs.«112477_j43018392437092_1_alg».proof.Proof.Region1
import proofs.«112477_j43018392437092_1_alg».proof.Proof.Region2
import proofs.«112477_j43018392437092_1_alg».proof.Proof.Region3
import proofs.«112477_j43018392437092_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

section Host

variable {F : FTy → Type} [FloatOps F]
variable (m : (ℓ : Loc nD τ sig) → Buf (Elt F) ℓ) (ρ : Dev nD → PrngReg) (c : Dev nD)

set_option quotPrecheck false

local notation "aX" => m ((c.tc : Thread nD τ).loc main_arg0)
local notation "aE" => m ((c.tc : Thread nD τ).loc main_arg1)
local notation "aW1" => m ((c.tc : Thread nD τ).loc main_arg2)
local notation "aB1" => m ((c.tc : Thread nD τ).loc main_arg3)
local notation "aW2" => m ((c.tc : Thread nD τ).loc main_arg4)
local notation "aB2" => m ((c.tc : Thread nD τ).loc main_arg5)

/-! ## Before the first region: the edge list's sources, targets and weights, and the arguments

The three host stretches are read one after the other, the contents after each kept as a valuation (`Gen.W1`, `Gen.W2`, `Gen.W3`):
the edge list with self-loops, the degrees, their comparison with zero and their reciprocal square roots; the choice between
the root and zero; the edges' weights. Each buffer a later segment reads is named by the reference's stage of the same
operations on the edge list. -/

theorem W1_main_v5 : W1 m ρ c (Proc.devRef .tc main_v5) = Cert.ReferenceIdeal.ReadP.val_main_v5 (F := F) aE := by
  dsimp only [W1, W0, hostOps0]
  after_results_simp
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  all_goals try rfl

theorem W1_main_v6 : W1 m ρ c (Proc.devRef .tc main_v6) = Cert.ReferenceIdeal.ReadP.val_main_v6 (F := F) aE := by
  dsimp only [W1, W0, hostOps0]
  after_results_simp
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  all_goals try rfl

theorem W1_main_v12 : W1 m ρ c (Proc.devRef .tc main_v12) = Cert.ReferenceIdeal.ReadP.val_main_v12 (F := F) aE := by
  dsimp only [W1, W0, hostOps0]
  after_results_simp
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  all_goals try rfl

theorem W1_main_v13 : W1 m ρ c (Proc.devRef .tc main_v13) = Cert.ReferenceIdeal.ReadP.val_main_v13 (F := F) aE := by
  dsimp only [W1, W0, hostOps0]
  after_results_simp
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  all_goals try rfl

theorem W1_main_cst_2 : W1 m ρ c (Proc.devRef .tc main_cst_2) = Cert.ReferenceIdeal.ReadP.val_main_cst_2 (F := F) := by
  dsimp only [W1, W0, hostOps0]
  after_results_simp
  all_goals try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2]
  all_goals try rfl

theorem W1_main_arg0 : W1 m ρ c (Proc.devRef .tc main_arg0) = aX := by
  dsimp only [W1, W0, hostOps0]
  after_results_simp <;> rfl

theorem W1_main_arg2 : W1 m ρ c (Proc.devRef .tc main_arg2) = aW1 := by
  dsimp only [W1, W0, hostOps0]
  after_results_simp <;> rfl

theorem W1_main_arg3 : W1 m ρ c (Proc.devRef .tc main_arg3) = aB1 := by
  dsimp only [W1, W0, hostOps0]
  after_results_simp <;> rfl

theorem W1_main_arg4 : W1 m ρ c (Proc.devRef .tc main_arg4) = aW2 := by
  dsimp only [W1, W0, hostOps0]
  after_results_simp <;> rfl

theorem W1_main_arg5 : W1 m ρ c (Proc.devRef .tc main_arg5) = aB2 := by
  dsimp only [W1, W0, hostOps0]
  after_results_simp <;> rfl

/-- The degrees' reciprocal square roots where the degree is positive, zero elsewhere. -/
theorem W2_main_v14 : W2 m ρ c (Proc.devRef .tc main_v14) = Cert.ReferenceIdeal.ReadP.val_main_v14 (F := F) aE := by
  have h12 := W1_main_v12 m ρ c
  have h13 := W1_main_v13 m ρ c
  have hz := W1_main_cst_2 m ρ c
  show StableHlo.after hostOps0_1 (W1 m ρ c) (Proc.devRef .tc main_v14) = _
  generalize W1 m ρ c = V at h12 h13 hz ⊢
  dsimp only [hostOps0_1]
  after_results_simp
  rw [h12, h13, hz]
  simp only [Cert.ReferenceIdeal.ReadP.val_main_call0_v0, Cert.ReferenceIdeal.ReadP.val_main_call0_v1, Cert.ReferenceIdeal.ReadP.val_main_v14]
  generalize Cert.ReferenceIdeal.ReadP.val_main_v12 (F := F) aE = cnd
  generalize Cert.ReferenceIdeal.ReadP.val_main_v13 (F := F) aE = rts
  generalize Cert.ReferenceIdeal.ReadP.val_main_cst_2 (F := F) = zr
  rfl

theorem W2_main_v5 : W2 m ρ c (Proc.devRef .tc main_v5) = Cert.ReferenceIdeal.ReadP.val_main_v5 (F := F) aE := by
  refine Eq.trans ?_ (W1_main_v5 m ρ c)
  show StableHlo.after hostOps0_1 (W1 m ρ c) (Proc.devRef .tc main_v5) = W1 m ρ c (Proc.devRef .tc main_v5)
  generalize W1 m ρ c = V
  dsimp only [hostOps0_1]
  after_results_simp <;> rfl

theorem W2_main_v6 : W2 m ρ c (Proc.devRef .tc main_v6) = Cert.ReferenceIdeal.ReadP.val_main_v6 (F := F) aE := by
  refine Eq.trans ?_ (W1_main_v6 m ρ c)
  show StableHlo.after hostOps0_1 (W1 m ρ c) (Proc.devRef .tc main_v6) = W1 m ρ c (Proc.devRef .tc main_v6)
  generalize W1 m ρ c = V
  dsimp only [hostOps0_1]
  after_results_simp <;> rfl

theorem W2_main_arg0 : W2 m ρ c (Proc.devRef .tc main_arg0) = aX := by
  refine Eq.trans ?_ (W1_main_arg0 m ρ c)
  show StableHlo.after hostOps0_1 (W1 m ρ c) (Proc.devRef .tc main_arg0) = W1 m ρ c (Proc.devRef .tc main_arg0)
  generalize W1 m ρ c = V
  dsimp only [hostOps0_1]
  after_results_simp <;> rfl

theorem W2_main_arg2 : W2 m ρ c (Proc.devRef .tc main_arg2) = aW1 := by
  refine Eq.trans ?_ (W1_main_arg2 m ρ c)
  show StableHlo.after hostOps0_1 (W1 m ρ c) (Proc.devRef .tc main_arg2) = W1 m ρ c (Proc.devRef .tc main_arg2)
  generalize W1 m ρ c = V
  dsimp only [hostOps0_1]
  after_results_simp <;> rfl

theorem W2_main_arg3 : W2 m ρ c (Proc.devRef .tc main_arg3) = aB1 := by
  refine Eq.trans ?_ (W1_main_arg3 m ρ c)
  show StableHlo.after hostOps0_1 (W1 m ρ c) (Proc.devRef .tc main_arg3) = W1 m ρ c (Proc.devRef .tc main_arg3)
  generalize W1 m ρ c = V
  dsimp only [hostOps0_1]
  after_results_simp <;> rfl

theorem W2_main_arg4 : W2 m ρ c (Proc.devRef .tc main_arg4) = aW2 := by
  refine Eq.trans ?_ (W1_main_arg4 m ρ c)
  show StableHlo.after hostOps0_1 (W1 m ρ c) (Proc.devRef .tc main_arg4) = W1 m ρ c (Proc.devRef .tc main_arg4)
  generalize W1 m ρ c = V
  dsimp only [hostOps0_1]
  after_results_simp <;> rfl

theorem W2_main_arg5 : W2 m ρ c (Proc.devRef .tc main_arg5) = aB2 := by
  refine Eq.trans ?_ (W1_main_arg5 m ρ c)
  show StableHlo.after hostOps0_1 (W1 m ρ c) (Proc.devRef .tc main_arg5) = W1 m ρ c (Proc.devRef .tc main_arg5)
  generalize W1 m ρ c = V
  dsimp only [hostOps0_1]
  after_results_simp <;> rfl

/-- The edges' weights. -/
theorem W3_main_v29 : W3 m ρ c (Proc.devRef .tc main_v29) = Cert.ReferenceIdeal.ReadP.val_main_v29 (F := F) aE := by
  have h14 := W2_main_v14 m ρ c
  have h5 := W2_main_v5 m ρ c
  have h6 := W2_main_v6 m ρ c
  show StableHlo.after hostOps0_2 (W2 m ρ c) (Proc.devRef .tc main_v29) = _
  generalize W2 m ρ c = V at h14 h5 h6 ⊢
  dsimp only [hostOps0_2]
  after_results_simp
  rw [h14, h5, h6]
  all_goals try simp only [Cert.ReferenceIdeal.ReadP.val_main_c, Cert.ReferenceIdeal.ReadP.val_main_v15, Cert.ReferenceIdeal.ReadP.val_main_v16, Cert.ReferenceIdeal.ReadP.val_main_c_3, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29]
  all_goals try rfl

theorem W3_main_v5 : W3 m ρ c (Proc.devRef .tc main_v5) = Cert.ReferenceIdeal.ReadP.val_main_v5 (F := F) aE := by
  refine Eq.trans ?_ (W2_main_v5 m ρ c)
  show StableHlo.after hostOps0_2 (W2 m ρ c) (Proc.devRef .tc main_v5) = W2 m ρ c (Proc.devRef .tc main_v5)
  generalize W2 m ρ c = V
  dsimp only [hostOps0_2]
  after_results_simp <;> rfl

theorem W3_main_v6 : W3 m ρ c (Proc.devRef .tc main_v6) = Cert.ReferenceIdeal.ReadP.val_main_v6 (F := F) aE := by
  refine Eq.trans ?_ (W2_main_v6 m ρ c)
  show StableHlo.after hostOps0_2 (W2 m ρ c) (Proc.devRef .tc main_v6) = W2 m ρ c (Proc.devRef .tc main_v6)
  generalize W2 m ρ c = V
  dsimp only [hostOps0_2]
  after_results_simp <;> rfl

theorem W3_main_arg0 : W3 m ρ c (Proc.devRef .tc main_arg0) = aX := by
  refine Eq.trans ?_ (W2_main_arg0 m ρ c)
  show StableHlo.after hostOps0_2 (W2 m ρ c) (Proc.devRef .tc main_arg0) = W2 m ρ c (Proc.devRef .tc main_arg0)
  generalize W2 m ρ c = V
  dsimp only [hostOps0_2]
  after_results_simp <;> rfl

theorem W3_main_arg2 : W3 m ρ c (Proc.devRef .tc main_arg2) = aW1 := by
  refine Eq.trans ?_ (W2_main_arg2 m ρ c)
  show StableHlo.after hostOps0_2 (W2 m ρ c) (Proc.devRef .tc main_arg2) = W2 m ρ c (Proc.devRef .tc main_arg2)
  generalize W2 m ρ c = V
  dsimp only [hostOps0_2]
  after_results_simp <;> rfl

theorem W3_main_arg3 : W3 m ρ c (Proc.devRef .tc main_arg3) = aB1 := by
  refine Eq.trans ?_ (W2_main_arg3 m ρ c)
  show StableHlo.after hostOps0_2 (W2 m ρ c) (Proc.devRef .tc main_arg3) = W2 m ρ c (Proc.devRef .tc main_arg3)
  generalize W2 m ρ c = V
  dsimp only [hostOps0_2]
  after_results_simp <;> rfl

theorem W3_main_arg4 : W3 m ρ c (Proc.devRef .tc main_arg4) = aW2 := by
  refine Eq.trans ?_ (W2_main_arg4 m ρ c)
  show StableHlo.after hostOps0_2 (W2 m ρ c) (Proc.devRef .tc main_arg4) = W2 m ρ c (Proc.devRef .tc main_arg4)
  generalize W2 m ρ c = V
  dsimp only [hostOps0_2]
  after_results_simp <;> rfl

theorem W3_main_arg5 : W3 m ρ c (Proc.devRef .tc main_arg5) = aB2 := by
  refine Eq.trans ?_ (W2_main_arg5 m ρ c)
  show StableHlo.after hostOps0_2 (W2 m ρ c) (Proc.devRef .tc main_arg5) = W2 m ρ c (Proc.devRef .tc main_arg5)
  generalize W2 m ρ c = V
  dsimp only [hostOps0_2]
  after_results_simp <;> rfl

/-! ## What each later segment keeps -/

theorem W4_main_v5 : W4 m ρ c (Proc.devRef .tc main_v5) = Cert.ReferenceIdeal.ReadP.val_main_v5 (F := F) aE :=
  (W4_of_ne m ρ c main_v5 (by decide)).trans (W3_main_v5 m ρ c)
theorem W5_main_v5 : W5 m ρ c (Proc.devRef .tc main_v5) = Cert.ReferenceIdeal.ReadP.val_main_v5 (F := F) aE := by
  refine Eq.trans ?_ (W4_main_v5 m ρ c)
  dsimp only [W5, hostOps1]
  after_results_simp <;> rfl
theorem W6_main_v5 : W6 m ρ c (Proc.devRef .tc main_v5) = Cert.ReferenceIdeal.ReadP.val_main_v5 (F := F) aE :=
  (W6_of_ne m ρ c main_v5 (by decide)).trans (W5_main_v5 m ρ c)
theorem W7_main_v5 : W7 m ρ c (Proc.devRef .tc main_v5) = Cert.ReferenceIdeal.ReadP.val_main_v5 (F := F) aE :=
  (W7_of_ne m ρ c main_v5 (by decide)).trans (W6_main_v5 m ρ c)

theorem W4_main_v6 : W4 m ρ c (Proc.devRef .tc main_v6) = Cert.ReferenceIdeal.ReadP.val_main_v6 (F := F) aE :=
  (W4_of_ne m ρ c main_v6 (by decide)).trans (W3_main_v6 m ρ c)
theorem W5_main_v6 : W5 m ρ c (Proc.devRef .tc main_v6) = Cert.ReferenceIdeal.ReadP.val_main_v6 (F := F) aE := by
  refine Eq.trans ?_ (W4_main_v6 m ρ c)
  dsimp only [W5, hostOps1]
  after_results_simp <;> rfl
theorem W6_main_v6 : W6 m ρ c (Proc.devRef .tc main_v6) = Cert.ReferenceIdeal.ReadP.val_main_v6 (F := F) aE :=
  (W6_of_ne m ρ c main_v6 (by decide)).trans (W5_main_v6 m ρ c)
theorem W7_main_v6 : W7 m ρ c (Proc.devRef .tc main_v6) = Cert.ReferenceIdeal.ReadP.val_main_v6 (F := F) aE :=
  (W7_of_ne m ρ c main_v6 (by decide)).trans (W6_main_v6 m ρ c)

theorem W4_main_v29 : W4 m ρ c (Proc.devRef .tc main_v29) = Cert.ReferenceIdeal.ReadP.val_main_v29 (F := F) aE :=
  (W4_of_ne m ρ c main_v29 (by decide)).trans (W3_main_v29 m ρ c)
theorem W5_main_v29 : W5 m ρ c (Proc.devRef .tc main_v29) = Cert.ReferenceIdeal.ReadP.val_main_v29 (F := F) aE := by
  refine Eq.trans ?_ (W4_main_v29 m ρ c)
  dsimp only [W5, hostOps1]
  after_results_simp <;> rfl
theorem W6_main_v29 : W6 m ρ c (Proc.devRef .tc main_v29) = Cert.ReferenceIdeal.ReadP.val_main_v29 (F := F) aE :=
  (W6_of_ne m ρ c main_v29 (by decide)).trans (W5_main_v29 m ρ c)
theorem W7_main_v29 : W7 m ρ c (Proc.devRef .tc main_v29) = Cert.ReferenceIdeal.ReadP.val_main_v29 (F := F) aE :=
  (W7_of_ne m ρ c main_v29 (by decide)).trans (W6_main_v29 m ρ c)

theorem W4_main_arg3 : W4 m ρ c (Proc.devRef .tc main_arg3) = aB1 :=
  (W4_of_ne m ρ c main_arg3 (by decide)).trans (W3_main_arg3 m ρ c)
theorem W5_main_arg3 : W5 m ρ c (Proc.devRef .tc main_arg3) = aB1 := by
  refine Eq.trans ?_ (W4_main_arg3 m ρ c)
  dsimp only [W5, hostOps1]
  after_results_simp <;> rfl
theorem W6_main_arg3 : W6 m ρ c (Proc.devRef .tc main_arg3) = aB1 :=
  (W6_of_ne m ρ c main_arg3 (by decide)).trans (W5_main_arg3 m ρ c)
theorem W7_main_arg3 : W7 m ρ c (Proc.devRef .tc main_arg3) = aB1 :=
  (W7_of_ne m ρ c main_arg3 (by decide)).trans (W6_main_arg3 m ρ c)

theorem W4_main_arg4 : W4 m ρ c (Proc.devRef .tc main_arg4) = aW2 :=
  (W4_of_ne m ρ c main_arg4 (by decide)).trans (W3_main_arg4 m ρ c)
theorem W5_main_arg4 : W5 m ρ c (Proc.devRef .tc main_arg4) = aW2 := by
  refine Eq.trans ?_ (W4_main_arg4 m ρ c)
  dsimp only [W5, hostOps1]
  after_results_simp <;> rfl
theorem W6_main_arg4 : W6 m ρ c (Proc.devRef .tc main_arg4) = aW2 :=
  (W6_of_ne m ρ c main_arg4 (by decide)).trans (W5_main_arg4 m ρ c)

theorem W4_main_arg5 : W4 m ρ c (Proc.devRef .tc main_arg5) = aB2 :=
  (W4_of_ne m ρ c main_arg5 (by decide)).trans (W3_main_arg5 m ρ c)
theorem W5_main_arg5 : W5 m ρ c (Proc.devRef .tc main_arg5) = aB2 := by
  refine Eq.trans ?_ (W4_main_arg5 m ρ c)
  dsimp only [W5, hostOps1]
  after_results_simp <;> rfl
theorem W6_main_arg5 : W6 m ρ c (Proc.devRef .tc main_arg5) = aB2 :=
  (W6_of_ne m ρ c main_arg5 (by decide)).trans (W5_main_arg5 m ρ c)
theorem W7_main_arg5 : W7 m ρ c (Proc.devRef .tc main_arg5) = aB2 :=
  (W7_of_ne m ρ c main_arg5 (by decide)).trans (W6_main_arg5 m ρ c)

/-! ## The host stretches between the regions -/

/-- The host stretch after the first region leaves the first edge sum of the region's output. -/
theorem W5_sum1 : W5 m ρ c (Proc.devRef .tc main_v43) = Cert.Net.edgeSum128 (F := F) (W4 m ρ c (Proc.devRef .tc main_v30)) aE := by
  dsimp only [W5, hostOps1]
  after_results_simp
  rw [W4_main_v5 m ρ c, W4_main_v6 m ρ c, W4_main_v29 m ρ c]
  generalize W4 m ρ c (Proc.devRef .tc main_v30) = h
  simp only [Cert.Net.edgeSum128, Cert.ReferenceIdeal.ReadP.val_main_c_6, Cert.ReferenceIdeal.ReadP.val_main_v31, Cert.ReferenceIdeal.ReadP.val_main_v32, Cert.ReferenceIdeal.ReadP.val_main_c_7, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v38, Cert.ReferenceIdeal.ReadP.val_main_v39, Cert.ReferenceIdeal.ReadP.val_main_cst_8, Cert.ReferenceIdeal.ReadP.val_main_v41, Cert.ReferenceIdeal.ReadP.val_main_v42]
  all_goals try rfl

/-- and the bias vector laid as one row. -/
theorem W5_row1 : W5 m ρ c (Proc.devRef .tc main_v44) = shapeCast S1x128 aB1 shapeCasts_S128_S1x128 := by
  dsimp only [W5, hostOps1]
  after_results_simp
  rw [W4_main_arg3 m ρ c]
  rfl

/-- The host stretch after the third region leaves the second edge sum of the region's output. -/
theorem W8_sum2 : W8 m ρ c (Proc.devRef .tc main_v59) = Cert.Net.edgeSum18 (F := F) (W7 m ρ c (Proc.devRef .tc main_v46)) aE := by
  dsimp only [W8, hostOps3]
  after_results_simp
  rw [W7_main_v5 m ρ c, W7_main_v6 m ρ c, W7_main_v29 m ρ c]
  generalize W7 m ρ c (Proc.devRef .tc main_v46) = h
  simp only [Cert.Net.edgeSum18, Cert.ReferenceIdeal.ReadP.val_main_c_9, Cert.ReferenceIdeal.ReadP.val_main_v49, Cert.ReferenceIdeal.ReadP.val_main_v50, Cert.ReferenceIdeal.ReadP.val_main_c_10, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v56, Cert.ReferenceIdeal.ReadP.val_main_v57, Cert.ReferenceIdeal.ReadP.val_main_cst_11, Cert.ReferenceIdeal.ReadP.val_main_v59, Cert.ReferenceIdeal.ReadP.val_main_v60]
  all_goals try rfl

/-- and the second bias vector laid as one row. -/
theorem W8_row2 : W8 m ρ c (Proc.devRef .tc main_v60) = shapeCast S1x18 aB2 shapeCasts_S18_S1x18 := by
  dsimp only [W8, hostOps3]
  after_results_simp
  rw [W7_main_arg5 m ρ c]
  rfl

end Host

/-! ## The regions, at the exact instance -/

section Regions

variable (m : (ℓ : Loc nD τ sig) → Buf (Elt Ideal) ℓ) (ρ : Dev nD → PrngReg) (c : Dev nD)

set_option quotPrecheck false

local notation "aX" => m ((c.tc : Thread nD τ).loc main_arg0)
local notation "aE" => m ((c.tc : Thread nD τ).loc main_arg1)
local notation "aW1" => m ((c.tc : Thread nD τ).loc main_arg2)
local notation "aB1" => m ((c.tc : Thread nD τ).loc main_arg3)
local notation "aW2" => m ((c.tc : Thread nD τ).loc main_arg4)
local notation "aB2" => m ((c.tc : Thread nD τ).loc main_arg5)

/-- After the first region its output array holds the features times the first weight matrix. -/
theorem W4_h1 : W4 m ρ c (Proc.devRef .tc main_v30) = Cert.Spec.dense aX aW1 :=
  (W4_arr m ρ c 2).trans ((Cert.KernelIdeal.Region0.final (V3 m ρ) c).trans
    (congrArg₂ Cert.Spec.dense (W3_main_arg0 m ρ c) (W3_main_arg2 m ρ c)))

/-- After the second region its output array holds the biased sums cut at zero. -/
theorem W6_hidden : W6 m ρ c (Proc.devRef .tc main_v45)
    = Cert.Spec.biasRelu (Cert.Net.edgeSum128 (F := Ideal) (Cert.Spec.dense aX aW1) aE) aB1 :=
  (W6_arr m ρ c 2).trans ((Cert.KernelIdeal.Region1.final (V5 m ρ) c aB1 shapeCasts_S128_S1x128 (W5_row1 m ρ c)).trans
    (congrArg (Cert.Spec.biasRelu · aB1) ((W5_sum1 m ρ c).trans (congrArg (Cert.Net.edgeSum128 (F := Ideal) · aE) (W4_h1 m ρ c)))))

/-- After the third region its output array holds the hidden features times the second weight matrix. -/
theorem W7_h2 : W7 m ρ c (Proc.devRef .tc main_v46)
    = Cert.Spec.dense (Cert.Spec.biasRelu (Cert.Net.edgeSum128 (F := Ideal) (Cert.Spec.dense aX aW1) aE) aB1) aW2 :=
  (W7_arr m ρ c 2).trans ((Cert.KernelIdeal.Region2.final (V6 m ρ) c).trans
    (congrArg₂ Cert.Spec.dense (W6_hidden m ρ c) (W6_main_arg4 m ρ c)))

/-- After the last region the result buffer holds the network function of the arguments. -/
theorem W9_result : W9 m ρ c (Proc.devRef .tc main_v61) = Cert.Net.net aX aE aW1 aB1 aW2 aB2 :=
  (W9_arr m ρ c 2).trans ((Cert.KernelIdeal.Region3.final (V8 m ρ) c aB2 shapeCasts_S18_S1x18 (W8_row2 m ρ c)).trans
    (congrArg (Cert.Spec.biasLogSoftmax · aB2) ((W8_sum2 m ρ c).trans (congrArg (Cert.Net.edgeSum18 (F := Ideal) · aE) (W7_h2 m ρ c)))))

end Regions

end Cert.KernelIdeal.Chain

end
-- ==== Proof.LibTypedRefs.lean ====
/-
  General lemmas about typed references (a buffer reference carrying the tensor value's type), used when a host program's
  outlined function is read operation by operation: an operation over typed references moves its operands from the buffers'
  own types to the value's type and its result back, by transport along the reference's type equation.

  * `ofBuf_toBuf` / `toBuf_ofBuf`: the two transports are inverse to each other, so a value written by one such operation and
    read by the next is read as it was written.
-/
import Idealize.ShloMosaic.Lib.StableHlo

noncomputable section

namespace Cert.TypedRefs

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h2, h3⟩ := x
  subst h
  rfl

/-- Contents moved to the value's type and back are the contents. -/
theorem toBuf_ofBuf (x : TRef sig T) (v : x.ref.ty.Contents Val) : x.toBuf (x.ofBuf v) = v := by
  obtain ⟨r, h, h2, h3⟩ := x
  subst h
  rfl

end Cert.TypedRefs

end
-- ==== Proof.RefStages.lean ====
/-
  The reference program's result buffer, read through the run's fold, is the last stage of the reference read one operation
  at a time.

  The run leaves every buffer at the fold of the 98 operations' results over the launch contents. Expanding that fold into
  one term of the arguments repeats the edge weights and the first layer at every use; it is read here in seven steps
  instead (the seven pieces `ops1` … `ops7` of the operation list), the contents at each cut kept as a valuation: the edge list with self-loops, the degrees, their comparison with
  zero and their reciprocal square roots (18 operations); the choice between the root and zero (3); the edges' weights and
  the first product (20); the first edge sum and the bias (19); the cut at zero (3); the second product, edge sum and bias
  (20); the log-softmax (15). The cuts put the operations of each function jax outlined (`where`, `relu`, `log_softmax`) in
  a step of their own, over contents already named. At each cut only the buffers a later step reads are named, each by its
  stage of the reference. Nothing here depends on what a float is: every statement is for any float values.
-/
import proofs.«112477_j43018392437092_1_alg».proof.Proof.RefRun
import proofs.«112477_j43018392437092_1_alg».proof.Proof.RefRead
import proofs.«112477_j43018392437092_1_alg».proof.Proof.LibTypedRefs

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over a list of operations is the fold over its tail part of the fold over its head part. -/
theorem after_append {Val : EltTy → Type} (l1 l2 : List (HloOp τ sig Val)) (V : Valuation τ sig Val) :
    after (l1 ++ l2) V = after l2 (after l1 V) := by
  induction l1 generalizing V with
  | nil => rfl
  | cons op l ih => exact ih (op.result V)

variable {F : FTy → Type} [FloatOps F]
variable (m : (ℓ : Loc nD τ sig) → Buf (Elt F) ℓ) (c : Dev nD)

set_option quotPrecheck false

local notation "aX" => m ((c.tc : Thread nD τ).loc main_arg0)
local notation "aE" => m ((c.tc : Thread nD τ).loc main_arg1)
local notation "aW1" => m ((c.tc : Thread nD τ).loc main_arg2)
local notation "aB1" => m ((c.tc : Thread nD τ).loc main_arg3)
local notation "aW2" => m ((c.tc : Thread nD τ).loc main_arg4)
local notation "aB2" => m ((c.tc : Thread nD τ).loc main_arg5)

/-- The contents after the edge list, the degrees, their comparison with zero and their reciprocal square roots. -/
def V1 : Valuation τ sig (Elt F) := after (ops1 (F := F)) (launchContents m c)
/-- After the choice between the root and zero. -/
def V2 : Valuation τ sig (Elt F) := after (ops2 (F := F)) (V1 m c)
/-- After the edges' weights and the first product. -/
def V3 : Valuation τ sig (Elt F) := after (ops3 (F := F)) (V2 m c)
/-- After the first edge sum and the bias. -/
def V4 : Valuation τ sig (Elt F) := after (ops4 (F := F)) (V3 m c)
/-- After the cut at zero. -/
def V5 : Valuation τ sig (Elt F) := after (ops5 (F := F)) (V4 m c)
/-- After the second product, edge sum and bias. -/
def V6 : Valuation τ sig (Elt F) := after (ops6 (F := F)) (V5 m c)
/-- After the log-softmax: the end of the program. -/
def V7 : Valuation τ sig (Elt F) := after (ops7 (F := F)) (V6 m c)

/-- The seven steps make up the whole fold. -/
theorem fold_eq : after (ops (F := F)) (launchContents m c) = V7 m c := by
  unfold V7 V6 V5 V4 V3 V2 V1
  rw [ops_eq, after_append, after_append, after_append, after_append, after_append, after_append]

/-! ## After the first step -/

theorem V1_main_v5 : V1 m c (Proc.devRef .tc main_v5) = val_main_v5 (F := F) aE := by
  unfold V1
  dsimp only [ops1]
  after_results_simp
  all_goals try simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2]
  all_goals try rfl

theorem V1_main_v6 : V1 m c (Proc.devRef .tc main_v6) = val_main_v6 (F := F) aE := by
  unfold V1
  dsimp only [ops1]
  after_results_simp
  all_goals try simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2]
  all_goals try rfl

theorem V1_main_v12 : V1 m c (Proc.devRef .tc main_v12) = val_main_v12 (F := F) aE := by
  unfold V1
  dsimp only [ops1]
  after_results_simp
  all_goals try simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2]
  all_goals try rfl

theorem V1_main_v13 : V1 m c (Proc.devRef .tc main_v13) = val_main_v13 (F := F) aE := by
  unfold V1
  dsimp only [ops1]
  after_results_simp
  all_goals try simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2]
  all_goals try rfl

theorem V1_main_cst_2 : V1 m c (Proc.devRef .tc main_cst_2) = val_main_cst_2 (F := F) := by
  unfold V1
  dsimp only [ops1]
  after_results_simp
  all_goals try simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2]
  all_goals try rfl

theorem V1_main_arg0 : V1 m c (Proc.devRef .tc main_arg0) = aX := by
  unfold V1
  dsimp only [ops1]
  after_results_simp <;> rfl

theorem V1_main_arg2 : V1 m c (Proc.devRef .tc main_arg2) = aW1 := by
  unfold V1
  dsimp only [ops1]
  after_results_simp <;> rfl

theorem V1_main_arg3 : V1 m c (Proc.devRef .tc main_arg3) = aB1 := by
  unfold V1
  dsimp only [ops1]
  after_results_simp <;> rfl

theorem V1_main_arg4 : V1 m c (Proc.devRef .tc main_arg4) = aW2 := by
  unfold V1
  dsimp only [ops1]
  after_results_simp <;> rfl

theorem V1_main_arg5 : V1 m c (Proc.devRef .tc main_arg5) = aB2 := by
  unfold V1
  dsimp only [ops1]
  after_results_simp <;> rfl

/-! ## After the choice between the root and zero -/

/-- The degrees' reciprocal square roots where the degree is positive, zero elsewhere. -/
theorem V2_main_v14 : V2 m c (Proc.devRef .tc main_v14) = val_main_v14 (F := F) aE := by
  unfold V2
  dsimp only [ops2]
  after_results_simp
  rw [V1_main_v12 m c, V1_main_v13 m c, V1_main_cst_2 m c]
  simp only [val_main_call0_v0, val_main_call0_v1, val_main_v14]
  generalize val_main_v12 (F := F) aE = cnd
  generalize val_main_v13 (F := F) aE = rts
  generalize val_main_cst_2 (F := F) = zr
  rfl

theorem V2_main_v5 : V2 m c (Proc.devRef .tc main_v5) = val_main_v5 (F := F) aE := by
  refine Eq.trans ?_ (V1_main_v5 m c)
  unfold V2
  dsimp only [ops2]
  after_results_simp <;> rfl

theorem V2_main_v6 : V2 m c (Proc.devRef .tc main_v6) = val_main_v6 (F := F) aE := by
  refine Eq.trans ?_ (V1_main_v6 m c)
  unfold V2
  dsimp only [ops2]
  after_results_simp <;> rfl

theorem V2_main_arg0 : V2 m c (Proc.devRef .tc main_arg0) = aX := by
  refine Eq.trans ?_ (V1_main_arg0 m c)
  unfold V2
  dsimp only [ops2]
  after_results_simp <;> rfl

theorem V2_main_arg2 : V2 m c (Proc.devRef .tc main_arg2) = aW1 := by
  refine Eq.trans ?_ (V1_main_arg2 m c)
  unfold V2
  dsimp only [ops2]
  after_results_simp <;> rfl

theorem V2_main_arg3 : V2 m c (Proc.devRef .tc main_arg3) = aB1 := by
  refine Eq.trans ?_ (V1_main_arg3 m c)
  unfold V2
  dsimp only [ops2]
  after_results_simp <;> rfl

theorem V2_main_arg4 : V2 m c (Proc.devRef .tc main_arg4) = aW2 := by
  refine Eq.trans ?_ (V1_main_arg4 m c)
  unfold V2
  dsimp only [ops2]
  after_results_simp <;> rfl

theorem V2_main_arg5 : V2 m c (Proc.devRef .tc main_arg5) = aB2 := by
  refine Eq.trans ?_ (V1_main_arg5 m c)
  unfold V2
  dsimp only [ops2]
  after_results_simp <;> rfl

/-! ## After the edges' weights and the first product -/

/-- The edges' weights. -/
theorem V3_main_v29 : V3 m c (Proc.devRef .tc main_v29) = val_main_v29 (F := F) aE := by
  unfold V3
  dsimp only [ops3]
  after_results_simp
  rw [V2_main_v14 m c, V2_main_v5 m c, V2_main_v6 m c]
  all_goals try simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_v30]
  all_goals try rfl

/-- The first product. -/
theorem V3_main_v30 : V3 m c (Proc.devRef .tc main_v30) = val_main_v30 (F := F) aX aW1 := by
  unfold V3
  dsimp only [ops3]
  after_results_simp
  rw [V2_main_arg0 m c, V2_main_arg2 m c]
  all_goals try simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_v30]
  all_goals try rfl

theorem V3_main_v5 : V3 m c (Proc.devRef .tc main_v5) = val_main_v5 (F := F) aE := by
  refine Eq.trans ?_ (V2_main_v5 m c)
  unfold V3
  dsimp only [ops3]
  after_results_simp <;> rfl

theorem V3_main_v6 : V3 m c (Proc.devRef .tc main_v6) = val_main_v6 (F := F) aE := by
  refine Eq.trans ?_ (V2_main_v6 m c)
  unfold V3
  dsimp only [ops3]
  after_results_simp <;> rfl

theorem V3_main_arg3 : V3 m c (Proc.devRef .tc main_arg3) = aB1 := by
  refine Eq.trans ?_ (V2_main_arg3 m c)
  unfold V3
  dsimp only [ops3]
  after_results_simp <;> rfl

theorem V3_main_arg4 : V3 m c (Proc.devRef .tc main_arg4) = aW2 := by
  refine Eq.trans ?_ (V2_main_arg4 m c)
  unfold V3
  dsimp only [ops3]
  after_results_simp <;> rfl

theorem V3_main_arg5 : V3 m c (Proc.devRef .tc main_arg5) = aB2 := by
  refine Eq.trans ?_ (V2_main_arg5 m c)
  unfold V3
  dsimp only [ops3]
  after_results_simp <;> rfl

/-! ## After the first edge sum and the bias -/

/-- The biased first edge sum. -/
theorem V4_main_v46 : V4 m c (Proc.devRef .tc main_v46) = val_main_v46 (F := F) aX aE aW1 aB1 := by
  unfold V4
  dsimp only [ops4]
  after_results_simp
  rw [V3_main_v30 m c, V3_main_v5 m c, V3_main_v6 m c, V3_main_v29 m c, V3_main_arg3 m c]
  all_goals try simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46]
  all_goals try rfl

theorem V4_main_v5 : V4 m c (Proc.devRef .tc main_v5) = val_main_v5 (F := F) aE := by
  refine Eq.trans ?_ (V3_main_v5 m c)
  unfold V4
  dsimp only [ops4]
  after_results_simp <;> rfl

theorem V4_main_v6 : V4 m c (Proc.devRef .tc main_v6) = val_main_v6 (F := F) aE := by
  refine Eq.trans ?_ (V3_main_v6 m c)
  unfold V4
  dsimp only [ops4]
  after_results_simp <;> rfl

theorem V4_main_v29 : V4 m c (Proc.devRef .tc main_v29) = val_main_v29 (F := F) aE := by
  refine Eq.trans ?_ (V3_main_v29 m c)
  unfold V4
  dsimp only [ops4]
  after_results_simp <;> rfl

theorem V4_main_arg4 : V4 m c (Proc.devRef .tc main_arg4) = aW2 := by
  refine Eq.trans ?_ (V3_main_arg4 m c)
  unfold V4
  dsimp only [ops4]
  after_results_simp <;> rfl

theorem V4_main_arg5 : V4 m c (Proc.devRef .tc main_arg5) = aB2 := by
  refine Eq.trans ?_ (V3_main_arg5 m c)
  unfold V4
  dsimp only [ops4]
  after_results_simp <;> rfl

/-! ## After the cut at zero -/

/-- The hidden features. -/
theorem V5_main_v47 : V5 m c (Proc.devRef .tc main_v47) = val_main_v47 (F := F) aX aE aW1 aB1 := by
  unfold V5
  dsimp only [ops5]
  after_results_simp
  rw [V4_main_v46 m c]
  simp only [val_main_call1_cst, val_main_call1_v0, val_main_v47]
  generalize val_main_v46 (F := F) aX aE aW1 aB1 = z
  rfl

theorem V5_main_v5 : V5 m c (Proc.devRef .tc main_v5) = val_main_v5 (F := F) aE := by
  refine Eq.trans ?_ (V4_main_v5 m c)
  unfold V5
  dsimp only [ops5]
  after_results_simp <;> rfl

theorem V5_main_v6 : V5 m c (Proc.devRef .tc main_v6) = val_main_v6 (F := F) aE := by
  refine Eq.trans ?_ (V4_main_v6 m c)
  unfold V5
  dsimp only [ops5]
  after_results_simp <;> rfl

theorem V5_main_v29 : V5 m c (Proc.devRef .tc main_v29) = val_main_v29 (F := F) aE := by
  refine Eq.trans ?_ (V4_main_v29 m c)
  unfold V5
  dsimp only [ops5]
  after_results_simp <;> rfl

theorem V5_main_arg4 : V5 m c (Proc.devRef .tc main_arg4) = aW2 := by
  refine Eq.trans ?_ (V4_main_arg4 m c)
  unfold V5
  dsimp only [ops5]
  after_results_simp <;> rfl

theorem V5_main_arg5 : V5 m c (Proc.devRef .tc main_arg5) = aB2 := by
  refine Eq.trans ?_ (V4_main_arg5 m c)
  unfold V5
  dsimp only [ops5]
  after_results_simp <;> rfl

/-! ## After the second product, edge sum and bias -/

/-- The biased class scores. -/
theorem V6_main_v64 : V6 m c (Proc.devRef .tc main_v64) = val_main_v64 (F := F) aX aE aW1 aB1 aW2 aB2 := by
  unfold V6
  dsimp only [ops6]
  after_results_simp
  rw [V5_main_v47 m c, V5_main_v5 m c, V5_main_v6 m c, V5_main_v29 m c, V5_main_arg4 m c, V5_main_arg5 m c]
  all_goals try simp only [val_main_v48, val_main_c_9, val_main_v49, val_main_v50, val_main_c_10, val_main_v51, val_main_v52, val_main_v53, val_main_v54, val_main_v55, val_main_v56, val_main_v57, val_main_v58, val_main_cst_11, val_main_v59, val_main_v60, val_main_v61, val_main_v62, val_main_v63, val_main_v64]
  all_goals try rfl

/-! ## At the end -/

/-- The result. -/
theorem V7_main_v65 : V7 m c (Proc.devRef .tc main_v65) = val_main_v65 (F := F) aX aE aW1 aB1 aW2 aB2 := by
  unfold V7
  dsimp only [ops7]
  after_results_simp
  rw [V6_main_v64 m c]
  simp only [val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v65]
  generalize val_main_v64 (F := F) aX aE aW1 aB1 aW2 aB2 = z
  simp only [Cert.TypedRefs.ofBuf_toBuf]
  have hin : ∀ w : (⟨S100000x18, .f32⟩ : BufTy).Contents (Elt F), (TRef.of (T := ⟨S100000x18, .f32⟩) main_v64).ofBuf w = w := fun _ => rfl
  have hout : ∀ w : (⟨S100000x18, .f32⟩ : BufTy).Contents (Elt F), (TRef.of (T := ⟨S100000x18, .f32⟩) main_v65).toBuf w = w := fun _ => rfl
  simp only [hin, hout]

/-- The run's fold at the result buffer is the reference's last stage. -/
theorem result_eq : after (ops (F := F)) (launchContents m c) (Proc.devRef .tc main_v65)
    = val_main_v65 (F := F) aX aE aW1 aB1 aW2 aB2 :=
  (congrFun (fold_eq m c) _).trans (V7_main_v65 m c)

end Cert.ReferenceIdeal.Stages

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«112477_j43018392437092_1_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.LibHostRowMax.lean ====
/-
  General lemma for a host program that takes a maximum along the rows of a matrix, read at the exact (extended-real) instance.

  * `hostRowMax_apply`: the host's one-operand reduce with a maximum body along the last axis of an [a, b] array, from an
    initial value, reads at row p the fold of max over the row's b entries from that initial value. Stated for variable
    extents, so that reading the inserted index stays symbolic whatever the sizes it is used at.
-/
import Idealize.ShloMosaic.Lib.ValueIdx
import Idealize.ShloMosaic.PureOps.Ideal.Laws

noncomputable section

namespace Cert.HostRowMax

open Idealize.ShloMosaic Idealize.ShloMosaic.ValueIdx

/-- The host's maximum along the last axis of an [a, b] array, at row p: the fold of max over k of the array at (p, k), from
    the initial value's one element. -/
theorem hostRowMax_apply {a b : ℕ} {u : Shape} (z : FVec Ideal ⟨2, ![a, b]⟩ .f32) (init : u.Idx → Ideal .f32)
    (h' : (⟨2, ![a, b]⟩ : Shape).ReducesTo [1] ⟨1, ![a]⟩) (hr : (⟨2, ![a, b]⟩ : Shape).Reduces [1] ⟨1, ![a]⟩) (hu : 0 < u.numel)
    (p : Fin a) :
    Host.reduce (FloatOps.maximumf (F := Ideal) (φ := .f32)) z init h' hu (ix1 p)
      = (Finset.univ : Finset (Fin b)).fold max (init (Shape.Idx.first hu)) (fun k => z (ix2 p k)) := by
  haveI : Std.Commutative (FloatOps.maximumf (F := Ideal) (φ := .f32)) := ⟨fun x y => max_comm (x : EReal) y⟩
  haveI : Std.Associative (FloatOps.maximumf (F := Ideal) (φ := .f32)) := ⟨fun x y w => max_assoc (x : EReal) y w⟩
  refine (Host.reduce_eq_fold_single (FloatOps.maximumf (F := Ideal) (φ := .f32)) z init h' hr hu (ix1 p)).trans ?_
  refine congrArg (Finset.fold max (init (Shape.Idx.first hu)) · Finset.univ) (funext fun k => ?_)
  refine congrArg z (funext fun c => Fin.ext ?_)
  rw [hr.lift_val]
  match c with
  | ⟨0, _⟩ => rfl
  | ⟨1, _⟩ => rfl

end Cert.HostRowMax

end
-- ==== Proof.RefValue.lean ====
/-
  The reference's result is the network function `Cert.Net.net` of its arguments.

  Read one operation at a time (the stages `val_…` of the reference's program): the host's two products are plain sums over
  the contracted axis; the bias is laid along the rows in two broadcasts and `relu` is the maximum with the zero constant
  broadcast; `log_softmax` takes the row maximum by a fold from −∞ (then once more the maximum with −∞, which changes
  nothing), subtracts it, sums the exponentials along the row, takes the logarithm and subtracts it. The edge sums are the
  reference's own operations by definition.
-/
import proofs.«112477_j43018392437092_1_alg».proof.Proof.Spec
import proofs.«112477_j43018392437092_1_alg».proof.Proof.LibGraphConv
import proofs.«112477_j43018392437092_1_alg».proof.Proof.LibHostRowMax

set_option maxRecDepth 16384

noncomputable section

open scoped BigOperators

namespace Cert.Net

open Cert.ReferenceIdeal Cert.ReferenceIdeal.ReadP Idealize.ShloMosaic Idealize.ShloMosaic.ValueIdx

variable (x : (⟨S100000x128, .f32⟩ : BufTy).Contents (Elt Ideal)) (e : (⟨S2x1600000, .i32⟩ : BufTy).Contents (Elt Ideal))
  (w1 : (⟨S128x128, .f32⟩ : BufTy).Contents (Elt Ideal)) (b1 : (⟨S128, .f32⟩ : BufTy).Contents (Elt Ideal))
  (w2 : (⟨S128x18, .f32⟩ : BufTy).Contents (Elt Ideal)) (b2 : (⟨S18, .f32⟩ : BufTy).Contents (Elt Ideal))

/-- The first product: the features times the first weight matrix. -/
theorem ref_dense1 : val_main_v30 (F := Ideal) x w1 = Cert.Spec.dense x w1 := by
  funext i
  rw [← Cert.Spec.ix2_row_col i]
  unfold val_main_v30
  exact Cert.GraphConv.hostMM_apply dot_S100000x128_S128x128_S100000x128_1_0_0_1_n_n rfl none x w1 _ _

/-- The first edge sum is the reference's gather, scale and scatter-add. -/
theorem ref_sum1 : val_main_v43 (F := Ideal) x e w1 = edgeSum128 (val_main_v30 (F := Ideal) x w1) e := rfl

/-- Bias and cut at zero. -/
theorem ref_relu : val_main_v47 (F := Ideal) x e w1 b1 = Cert.Spec.biasRelu (val_main_v43 (F := Ideal) x e w1) b1 := by
  funext i
  rw [val_main_v47_apply, val_main_v46_apply, val_main_v45_apply, val_main_v44_apply, val_main_call1_v0_apply, val_main_call1_cst_apply]
  have hi : idx_main_v44 (idx_main_v45 i) = ix1 (Cert.Spec.col i) := funext fun a => Fin.ext (by match a with | ⟨0, _⟩ => rfl)
  rw [hi]
  rfl

/-- The second product: the hidden features times the second weight matrix. -/
theorem ref_dense2 : val_main_v48 (F := Ideal) x e w1 b1 w2 = Cert.Spec.dense (val_main_v47 (F := Ideal) x e w1 b1) w2 := by
  funext i
  rw [← Cert.Spec.ix2_row_col i]
  unfold val_main_v48
  exact Cert.GraphConv.hostMM_apply dot_S100000x128_S128x18_S100000x18_1_0_0_1_n_n rfl none _ w2 _ _

/-- The second edge sum. -/
theorem ref_sum2 : val_main_v61 (F := Ideal) x e w1 b1 w2 = edgeSum18 (val_main_v48 (F := Ideal) x e w1 b1 w2) e := rfl

/-- The biased scores. -/
theorem ref_biased : val_main_v64 (F := Ideal) x e w1 b1 w2 b2 = Cert.Spec.biased (val_main_v61 (F := Ideal) x e w1 b1 w2) b2 := by
  funext i
  rw [val_main_v64_apply, val_main_v63_apply, val_main_v62_apply]
  have hi : idx_main_v62 (idx_main_v63 i) = ix1 (Cert.Spec.col i) := funext fun a => Fin.ext (by match a with | ⟨0, _⟩ => rfl)
  rw [hi]
  rfl

/-- The row maximum the reference subtracts: the fold of max over the row from −∞. -/
theorem ref_rowMax (p : Fin 100000) :
    val_main_call2_v2 (F := Ideal) x e w1 b1 w2 b2 (ix1 p) = Cert.Spec.rowMax (val_main_v64 (F := Ideal) x e w1 b1 w2 b2) p := by
  rw [val_main_call2_v2_apply, val_main_call2_v1_apply, val_main_call2_cst_0_apply]
  refine (Cert.Spec.max_ninf _).trans ?_
  unfold val_main_call2_v0
  generalize val_main_v64 (F := Ideal) x e w1 b1 w2 b2 = z
  exact Cert.HostRowMax.hostRowMax_apply z _ _ (by decide) _ p

/-- The scores with their row's maximum taken off. -/
theorem ref_centred : val_main_call2_v5 (F := Ideal) x e w1 b1 w2 b2 = Cert.Spec.centred (val_main_v64 (F := Ideal) x e w1 b1 w2 b2) := by
  funext i
  rw [val_main_call2_v5_apply, val_main_call2_v4_apply, val_main_call2_v3_apply]
  have hi : idx_main_call2_v3 (idx_main_call2_v4 i) = ix1 (Cert.Spec.row i) := funext fun a => Fin.ext (by match a with | ⟨0, _⟩ => rfl)
  rw [hi, ref_rowMax]
  rfl

/-- The row sums of the exponentials. -/
theorem ref_expSum (p : Fin 100000) : val_main_call2_v7 (F := Ideal) x e w1 b1 w2 b2 (ix1 p)
    = ∑ k : Fin 18, Ideal.exp (val_main_call2_v5 (F := Ideal) x e w1 b1 w2 b2 (ix2 p k)) := by
  rw [val_main_call2_v7_apply, val_main_call2_cst_1_apply]
  refine (congrArg (· + _) Ideal.ofBits_zero_f32).trans ?_
  rw [zero_add]
  refine Finset.sum_congr rfl fun k _ => ?_
  rw [val_main_call2_v6_apply, Ideal.hostUnary_exp_def]
  refine congrArg (fun j => Ideal.exp (val_main_call2_v5 (F := Ideal) x e w1 b1 w2 b2 j)) ?_
  exact funext fun a => Fin.ext (by match a with | ⟨0, _⟩ => rfl | ⟨1, _⟩ => rfl)

/-- The reference's result is the row-wise log-softmax of the biased scores. -/
theorem ref_logSoftmax : val_main_v65 (F := Ideal) x e w1 b1 w2 b2 = Cert.Spec.biasLogSoftmax (val_main_v61 (F := Ideal) x e w1 b1 w2) b2 := by
  funext i
  rw [val_main_v65_apply, val_main_call2_v10_apply, val_main_call2_v9_apply, val_main_call2_v8_apply]
  have hi : idx_main_call2_v8 (idx_main_call2_v10 i) = ix1 (Cert.Spec.row i) := funext fun a => Fin.ext (by match a with | ⟨0, _⟩ => rfl)
  rw [hi, ref_expSum, ref_centred, ref_biased, Ideal.subf_def, Ideal.hostUnary_log_def]
  unfold Cert.Spec.biasLogSoftmax
  rfl

/-- The reference's result is the network function of its arguments. -/
theorem ref_net : val_main_v65 (F := Ideal) x e w1 b1 w2 b2 = net x e w1 b1 w2 b2 := by
  unfold net
  rw [ref_logSoftmax, ref_sum2, ref_dense2, ref_relu, ref_sum1, ref_dense1]

end Cert.Net

end
-- ==== Proof.lean ====
/-
  The certificate of a two-layer graph convolutional network on 100000 nodes and 1.6 million edges (plus one self-loop per
  node): the kernel program against its plain reference, over the extended reals.

  Both programs build the same edge structure on the host — the sources and targets with the self-loops appended, the
  in-degrees by a scatter-add of ones, the degrees' reciprocal square roots where positive, and per edge the product of the
  two ends' values — and then compute
      x ↦ x·W₁ ↦ edge sum ↦ + b₁, cut at zero ↦ ·W₂ ↦ edge sum ↦ + b₂, row-wise log-softmax,
  an edge sum being: gather the rows along the edges' sources, scale each by its edge's weight, add it into its target's row.
  The reference does every step on the host. The kernel program does the two products, the bias-and-cut and the
  log-softmax in four gridded kernels of ten row tiles each, and keeps the edge sums on the host.

  At the exact instance a change of float format is the identity, a tile of a product is the plain sum over the contracted
  axis, and a row's bias-and-cut or log-softmax depends on that row only; so each kernel region leaves in its output array
  the same whole-array function the reference's host operations compute (Region0 … Region3, against LibLayers' functions), the
  host stretches between them are the reference's own operations (Spec), and the two results are one function of the
  arguments (KernelChain for the kernel program, RefStages and RefValue for the reference). No law of arithmetic beyond
  reading sums and maxima index by index is used, so the precondition (finite inputs) is not opened. The ideal pass rewrote
  nothing, so the kernel program's idealization is its own text and `preserves` holds trivially. The three frames are the
  generated ones (the reference's is its run with the result dropped).
-/
import proofs.«112477_j43018392437092_1_alg».proof.Defs
import proofs.«112477_j43018392437092_1_alg».proof.Proof.Gen.Kernel
import proofs.«112477_j43018392437092_1_alg».proof.Proof.Gen.Kernel.Skeleton
import proofs.«112477_j43018392437092_1_alg».proof.Proof.Gen.Kernel.Launch
import proofs.«112477_j43018392437092_1_alg».proof.Proof.Gen.Kernel.Points
import proofs.«112477_j43018392437092_1_alg».proof.Proof.Gen.Kernel.Frame
import proofs.«112477_j43018392437092_1_alg».proof.Proof.Gen.KernelIdeal
import proofs.«112477_j43018392437092_1_alg».proof.Proof.Gen.KernelIdeal.Skeleton
import proofs.«112477_j43018392437092_1_alg».proof.Proof.Gen.KernelIdeal.Launch
import proofs.«112477_j43018392437092_1_alg».proof.Proof.Gen.KernelIdeal.Points
import proofs.«112477_j43018392437092_1_alg».proof.Proof.Gen.KernelIdeal.Frame
import proofs.«112477_j43018392437092_1_alg».proof.Proof.Gen.ReferenceIdeal
import proofs.«112477_j43018392437092_1_alg».proof.Proof.Gen.Pre_finite_inputs
import proofs.«112477_j43018392437092_1_alg».proof.Proof.KernelRun
import proofs.«112477_j43018392437092_1_alg».proof.Proof.KernelChain
import proofs.«112477_j43018392437092_1_alg».proof.Proof.RefRun
import proofs.«112477_j43018392437092_1_alg».proof.Proof.RefStages
import proofs.«112477_j43018392437092_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the network function of the (agreeing) arguments in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W9_result m ρ c), (h c).2⟩)
      (Cert.KernelIdeal.RunValue.run_main (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5⟩ := hagree c
    rw [(h c).1, Cert.ReferenceIdeal.Stages.result_eq m' c, Cert.Net.ref_net, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
